-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x128 : Shape := ⟨3, ![4, 4096, 128]⟩
abbrev S_ : Shape := ⟨0, ![]⟩

class Facts : Prop where
  bcast_S_S4x4096x128 : S_.BroadcastsInDim S4x4096x128 (![] : Fin 0 → Fin S4x4096x128.rank)
  reducesTo_S4x4096x128_S_d0_1_2 : S4x4096x128.ReducesTo [0, 1, 2] S_
  h_S_ : 0 < S_.numel

variable [Facts]

def fn {F : FTy → Type} [FloatOps F] (main_arg0 : FVec F S4x4096x128 .f32) : IVec S_ 1 :=
  let main_v0 : FVec F S4x4096x128 .f32 := Host.absf main_arg0
  let main_cst : FVec F S_ .f32 := constant S_ .f32 0x7F800000#32
  let main_v1 : FVec F S4x4096x128 .f32 := broadcastInDim S4x4096x128 ![] bcast_S_S4x4096x128 main_cst
  let main_v2 : IVec S4x4096x128 1 := cmpf .olt main_v0 main_v1
  let main_c : IVec S_ 1 := constantI S_ 1 1#1
  let main_v3 : IVec S_ 1 := (fun x v => Host.reduce IntOp.andi x v reducesTo_S4x4096x128_S_d0_1_2 h_S_) main_v2 main_c
  main_v3
-- ==== Kernel.lean ====
abbrev S4x4096x128 : Shape := ⟨3, ![4, 4096, 128]⟩
abbrev S_ : Shape := ⟨0, ![]⟩
abbrev S4x4096 : Shape := ⟨2, ![4, 4096]⟩
abbrev S4x4096x1 : Shape := ⟨3, ![4, 4096, 1]⟩
abbrev S4x1x4096 : Shape := ⟨3, ![4, 1, 4096]⟩
abbrev S4x4096x4096 : Shape := ⟨3, ![4, 4096, 4096]⟩
abbrev S1x256x128 : Shape := ⟨3, ![1, 256, 128]⟩
abbrev S1x4096x128 : Shape := ⟨3, ![1, 4096, 128]⟩
abbrev S1x256x1 : Shape := ⟨3, ![1, 256, 1]⟩
abbrev S1x1x4096 : Shape := ⟨3, ![1, 1, 4096]⟩
abbrev S1x256x4096 : Shape := ⟨3, ![1, 256, 4096]⟩
abbrev S256x128 : Shape := ⟨2, ![256, 128]⟩
abbrev S4096x128 : Shape := ⟨2, ![4096, 128]⟩
abbrev S256x4096 : Shape := ⟨2, ![256, 4096]⟩
abbrev S256x1 : Shape := ⟨2, ![256, 1]⟩
abbrev S1x4096 : Shape := ⟨2, ![1, 4096]⟩
abbrev S256 : Shape := ⟨1, ![256]⟩
abbrev S4x4096x4096x1 : Shape := ⟨4, ![4, 4096, 4096, 1]⟩

abbrev nBuf : Space → Nat
  | .hbm => 9
  | .vmem => 10
  | .smem => 0
  | _ => 0

abbrev bufTy : (tb : Table) → Fin (tcTables nBuf tb) → BufTy
  | .hbm, ⟨0, _⟩ => ⟨S4x4096x128, .f32⟩
  | .hbm, ⟨1, _⟩ => ⟨S4x4096x128, .f32⟩
  | .hbm, ⟨2, _⟩ => ⟨S_, .f32⟩
  | .hbm, ⟨3, _⟩ => ⟨S4x4096, .f32⟩
  | .hbm, ⟨4, _⟩ => ⟨S4x4096x1, .f32⟩
  | .hbm, ⟨5, _⟩ => ⟨S4x1x4096, .f32⟩
  | .hbm, ⟨6, _⟩ => ⟨S4x4096x128, .bf16⟩
  | .hbm, ⟨7, _⟩ => ⟨S4x4096x4096, .f32⟩
  | .hbm, ⟨8, _⟩ => ⟨S4x4096x4096x1, .f32⟩
  | .local _ .vmem, ⟨0, _⟩ => ⟨S1x256x128, .bf16⟩
  | .local _ .vmem, ⟨1, _⟩ => ⟨S1x256x128, .bf16⟩
  | .local _ .vmem, ⟨2, _⟩ => ⟨S1x4096x128, .bf16⟩
  | .local _ .vmem, ⟨3, _⟩ => ⟨S1x4096x128, .bf16⟩
  | .local _ .vmem, ⟨4, _⟩ => ⟨S1x256x1, .f32⟩
  | .local _ .vmem, ⟨5, _⟩ => ⟨S1x256x1, .f32⟩
  | .local _ .vmem, ⟨6, _⟩ => ⟨S1x1x4096, .f32⟩
  | .local _ .vmem, ⟨7, _⟩ => ⟨S1x1x4096, .f32⟩
  | .local _ .vmem, ⟨8, _⟩ => ⟨S1x256x4096, .f32⟩
  | .local _ .vmem, ⟨9, _⟩ => ⟨S1x256x4096, .f32⟩
  | _, _ => ⟨S4x4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x256x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x256x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  reducesTo_S4x4096x128_S4x4096_d2 : S4x4096x128.ReducesTo [2] S4x4096
  h_S_ : 0 < S_.numel
  bcast_S4x4096_S4x4096x1_0_1 : S4x4096.BroadcastsInDim S4x4096x1 (![0, 1] : Fin 2 → Fin S4x4096x1.rank)
  transposes_S4x4096x1_S4x1x4096_0_2_1 : S4x4096x1.Transposes [0, 2, 1] S4x1x4096
  bitsLt_bf16_f32 : FTy.bits .bf16 < FTy.bits .f32
  inb_S1x256x128_S1x256x128_0_0_0 : ∀ a, (![0, 0, 0] : Fin 3 → Nat) a + S1x256x128.size a ≤ S1x256x128.size a
  h_S1x256x128 : 0 < S1x256x128.numel
  shapeCasts_S1x256x128_S256x128 : S1x256x128.ShapeCasts S256x128
  inb_S1x4096x128_S1x4096x128_0_0_0 : ∀ a, (![0, 0, 0] : Fin 3 → Nat) a + S1x4096x128.size a ≤ S1x4096x128.size a
  h_S1x4096x128 : 0 < S1x4096x128.numel
  shapeCasts_S1x4096x128_S4096x128 : S1x4096x128.ShapeCasts S4096x128
  inb_S1x256x1_S1x256x1_0_0_0 : ∀ a, (![0, 0, 0] : Fin 3 → Nat) a + S1x256x1.size a ≤ S1x256x1.size a
  h_S1x256x1 : 0 < S1x256x1.numel
  shapeCasts_S1x256x1_S256x1 : S1x256x1.ShapeCasts S256x1
  inb_S1x1x4096_S1x1x4096_0_0_0 : ∀ a, (![0, 0, 0] : Fin 3 → Nat) a + S1x1x4096.size a ≤ S1x1x4096.size a
  h_S1x1x4096 : 0 < S1x1x4096.numel
  shapeCasts_S1x1x4096_S1x4096 : S1x1x4096.ShapeCasts S1x4096
  broadcasts_S256x1_S256x4096 : S256x1.Broadcasts S256x4096
  broadcasts_S1x4096_S256x4096 : S1x4096.Broadcasts S256x4096
  reduces_S256x4096_S256 : S256x4096.Reduces [1] S256
  shapeCasts_S256_S256x1 : S256.ShapeCasts S256x1
  inb_S1x256x4096_S1x256x4096_0_0_0 : ∀ a, (![0, 0, 0] : Fin 3 → Nat) a + S1x256x4096.size a ≤ S1x256x4096.size a
  h_S1x256x4096 : 0 < S1x256x4096.numel
  shapeCasts_S1x256x4096_S256x4096 : S1x256x4096.ShapeCasts S256x4096
  shapeCasts_S256x4096_S1x256x4096 : S256x4096.ShapeCasts S1x256x4096
  bcast_S4x4096x4096_S4x4096x4096x1_0_1_2 : S4x4096x4096.BroadcastsInDim S4x4096x4096x1 (![0, 1, 2] : Fin 3 → Fin S4x4096x4096x1.rank)
  dot_S256x128_S4096x128_S256x4096_1_1_0_0_n_n_wf : DotDims.WF S256x128 S4096x128 S256x4096 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x128.size a ≤ S4x4096x128.size a
  hwx0_0 : ∀ i : grid0.Coords, EltTy.bits .bf16 = 32 ∨ (Rect.block (s := S4x4096x128) S1x256x128.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x4096x128.size a ≤ S4x4096x128.size a
  hwx0_1 : ∀ i : grid0.Coords, EltTy.bits .bf16 = 32 ∨ (Rect.block (s := S4x4096x128) S1x4096x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x256x1.size a ≤ S4x4096x1.size a
  hwx0_2 : ∀ i : grid0.Coords, EltTy.bits .f32 = 32 ∨ (Rect.block (s := S4x4096x1) S1x256x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x4096.size a ≤ S4x1x4096.size a
  hwx0_3 : ∀ i : grid0.Coords, EltTy.bits .f32 = 32 ∨ (Rect.block (s := S4x1x4096) S1x1x4096.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x256x4096.size a ≤ S4x4096x4096.size a
  hwx0_4 : ∀ i : grid0.Coords, EltTy.bits .f32 = 32 ∨ (Rect.block (s := S4x4096x4096) S1x256x4096.size (cc0_transform_4 i) (hinb0_4 i)).WholeWords (EltTy.packing .f32)

variable [Facts₀]

def dot_S256x128_S4096x128_S256x4096_1_1_0_0_n_n : DotDims S256x128 S4096x128 S256x4096 where
  lhsContracting := [1]
  rhsContracting := [1]
  lhsNonContracting := [0]
  rhsNonContracting := [0]
  lhsBatch := []
  rhsBatch := []
  wf := dot_S256x128_S4096x128_S256x4096_1_1_0_0_n_n_wf

abbrev win0_0 : Pipeline.Window sig grid0 :=
  Pipeline.Window.ofSpec (Memref.whole main_v4) S1x256x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S1x4096x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x256x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x1x4096.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v5) S1x256x4096.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S4x4096x128 : Shape := ⟨3, ![4, 4096, 128]⟩
abbrev S_ : Shape := ⟨0, ![]⟩
abbrev S4x4096 : Shape := ⟨2, ![4, 4096]⟩
abbrev S4x4096x4096 : Shape := ⟨3, ![4, 4096, 4096]⟩
abbrev S4x4096x1 : Shape := ⟨3, ![4, 4096, 1]⟩
abbrev S4x1x4096 : Shape := ⟨3, ![4, 1, 4096]⟩
abbrev S4x4096x4096x1 : Shape := ⟨4, ![4, 4096, 4096, 1]⟩

abbrev nBuf : Space → Nat
  | .hbm => 36
  | .vmem => 0
  | .smem => 0
  | _ => 0

abbrev bufTy : (tb : Table) → Fin (tcTables nBuf tb) → BufTy
  | .hbm, ⟨0, _⟩ => ⟨S4x4096x128, .f32⟩
  | .hbm, ⟨1, _⟩ => ⟨S4x4096x128, .f32⟩
  | .hbm, ⟨2, _⟩ => ⟨S_, .f32⟩
  | .hbm, ⟨3, _⟩ => ⟨S4x4096, .f32⟩
  | .hbm, ⟨4, _⟩ => ⟨S4x4096x4096, .f32⟩
  | .hbm, ⟨5, _⟩ => ⟨S4x4096x1, .f32⟩
  | .hbm, ⟨6, _⟩ => ⟨S4x1x4096, .f32⟩
  | .hbm, ⟨7, _⟩ => ⟨S4x4096x4096, .f32⟩
  | .hbm, ⟨8, _⟩ => ⟨S4x4096x4096, .f32⟩
  | .hbm, ⟨9, _⟩ => ⟨S4x4096x4096, .f32⟩
  | .hbm, ⟨10, _⟩ => ⟨S_, .f32⟩
  | .hbm, ⟨11, _⟩ => ⟨S4x4096x4096, .f32⟩
  | .hbm, ⟨12, _⟩ => ⟨S4x4096x4096, .f32⟩
  | .hbm, ⟨13, _⟩ => ⟨S4x4096x4096, .f32⟩
  | .hbm, ⟨14, _⟩ => ⟨S_, .f32⟩
  | .hbm, ⟨15, _⟩ => ⟨S4x4096x4096, .f32⟩
  | .hbm, ⟨16, _⟩ => ⟨S4x4096x4096, .f32⟩
  | .hbm, ⟨17, _⟩ => ⟨S4x4096x4096, .f32⟩
  | .hbm, ⟨18, _⟩ => ⟨S_, .f32⟩
  | .hbm, ⟨19, _⟩ => ⟨S4x4096x4096, .f32⟩
  | .hbm, ⟨20, _⟩ => ⟨S4x4096x4096, .f32⟩
  | .hbm, ⟨21, _⟩ => ⟨S_, .f32⟩
  | .hbm, ⟨22, _⟩ => ⟨S4x4096, .f32⟩
  | .hbm, ⟨23, _⟩ => ⟨S_, .f32⟩
  | .hbm, ⟨24, _⟩ => ⟨S4x4096, .f32⟩
  | .hbm, ⟨25, _⟩ => ⟨S4x4096, .f32⟩
  | .hbm, ⟨26, _⟩ => ⟨S4x4096x1, .f32⟩
  | .hbm, ⟨27, _⟩ => ⟨S4x4096x4096, .f32⟩
  | .hbm, ⟨28, _⟩ => ⟨S4x4096x4096, .f32⟩
  | .hbm, ⟨29, _⟩ => ⟨S4x4096x4096, .f32⟩
  | .hbm, ⟨30, _⟩ => ⟨S_, .f32⟩
  | .hbm, ⟨31, _⟩ => ⟨S4x4096, .f32⟩
  | .hbm, ⟨32, _⟩ => ⟨S4x4096x1, .f32⟩
  | .hbm, ⟨33, _⟩ => ⟨S4x4096x4096, .f32⟩
  | .hbm, ⟨34, _⟩ => ⟨S4x4096x4096, .f32⟩
  | .hbm, ⟨35, _⟩ => ⟨S4x4096x4096x1, .f32⟩
  | _, _ => ⟨S4x4096x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_cst_0 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_cst_1 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_cst_2 : Ref sig .tc := ⟨.hbm, 18, rfl⟩
abbrev main_v14 : Ref sig .tc := ⟨.hbm, 19, rfl⟩
abbrev main_v15 : Ref sig .tc := ⟨.hbm, 20, rfl⟩
abbrev main_cst_3 : Ref sig .tc := ⟨.hbm, 21, rfl⟩
abbrev main_v16 : Ref sig .tc := ⟨.hbm, 22, rfl⟩
abbrev main_cst_4 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_cst_5 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩

abbrev nD : Nat := 1
abbrev τ : Topo := Topo.v7x

variable {F : FTy → Type} [FloatOps F]

class Facts₀ : Prop where
  reducesTo_S4x4096x128_S4x4096_d2 : S4x4096x128.ReducesTo [2] S4x4096
  h_S_ : 0 < S_.numel
  bcast_S4x4096_S4x4096x1_0_1 : S4x4096.BroadcastsInDim S4x4096x1 (![0, 1] : Fin 2 → Fin S4x4096x1.rank)
  bcast_S4x4096_S4x1x4096_0_2 : S4x4096.BroadcastsInDim S4x1x4096 (![0, 2] : Fin 2 → Fin S4x1x4096.rank)
  bcast_S4x4096x1_S4x4096x4096_0_1_2 : S4x4096x1.BroadcastsInDim S4x4096x4096 (![0, 1, 2] : Fin 3 → Fin S4x4096x4096.rank)
  bcast_S4x1x4096_S4x4096x4096_0_1_2 : S4x1x4096.BroadcastsInDim S4x4096x4096 (![0, 1, 2] : Fin 3 → Fin S4x4096x4096.rank)
  bcast_S_S4x4096x4096 : S_.BroadcastsInDim S4x4096x4096 (![] : Fin 0 → Fin S4x4096x4096.rank)
  reducesTo_S4x4096x4096_S4x4096_d2 : S4x4096x4096.ReducesTo [2] S4x4096
  bcast_S_S4x4096 : S_.BroadcastsInDim S4x4096 (![] : Fin 0 → Fin S4x4096.rank)
  bcast_S4x4096x4096_S4x4096x4096x1_0_1_2 : S4x4096x4096.BroadcastsInDim S4x4096x4096x1 (![0, 1, 2] : Fin 3 → Fin S4x4096x4096x1.rank)
  dot_S4x4096x128_S4x4096x128_S4x4096x4096_2_2_1_1_0_0_wf : DotDims.WF S4x4096x128 S4x4096x128 S4x4096x4096 [2] [2] [1] [1] [0] [0]

variable [Facts₀]

def dot_S4x4096x128_S4x4096x128_S4x4096x4096_2_2_1_1_0_0 : DotDims S4x4096x128 S4x4096x128 S4x4096x4096 where
  lhsContracting := [2]
  rhsContracting := [2]
  lhsNonContracting := [1]
  rhsNonContracting := [1]
  lhsBatch := [0]
  rhsBatch := [0]
  wf := dot_S4x4096x128_S4x4096x128_S4x4096x4096_2_2_1_1_0_0_wf

class Facts : Prop extends Facts₀ where

variable [Facts]
-- ==== Proof.KData.lean ====
/-
  The proof data of the kernel region, at any float instance.

  The region has five windows on a 4 × 16 grid. Windows 0 and 1 are both cut out of ONE array, the rounded copy of the
  input: window 0 is the 256 query rows of the point, window 1 all 4096 key rows of the point's batch. Windows 2 and 3
  are the squared norms as a column for the query rows and as a row for the key rows; window 4 is the 256 × 4096 block of
  the result the point writes. The body reads the four input blocks whole and stores ONE value into the output block,
  so after the body the output's staging buffer holds that value of the four input blocks and every input's buffer
  holds its block as before. Because two input windows sit on one array, each holds half of it: the array is only read.
-/
import proofs.«109996_j25864293057205_1_alg».proof.Proof.Gen.Kernel.Launch
import proofs.«109996_j25864293057205_1_alg».proof.Proof.Gen.Kernel.Skeleton
import proofs.«109996_j25864293057205_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window whose body leaves its block in place holds its block at every point, fetched there or not: where
    it is not fetched the block index has not moved, so the buffer still holds this point's block. One statement per
    input window, each at its own block shape. -/
theorem before_of_0 {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_of_1 {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_of_2 {c : Dev nD} (dat : Dat τ (Elt F) Unit ℕ (UR sig nD τ) ℕ cfg0 c) (hA : dat.A 2 = V c (Pipeline.arrRef spec0 2))
    (hafter : ∀ t, dat.after 2 t = iblk V c 2 t) (t : Fin cfg0.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_of_3 {c : Dev nD} (dat : Dat τ (Elt F) Unit ℕ (UR sig nD τ) ℕ cfg0 c) (hA : dat.A 3 = V c (Pipeline.arrRef spec0 3))
    (hafter : ∀ t, dat.after 3 t = iblk V c 3 t) (t : Fin cfg0.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The body's accesses: every window is read or written whole -/

abbrev r0 : Rect S1x256x128 := Rect.unit (s := S1x256x128) ![0, 0, 0] S1x256x128.size inb_S1x256x128_S1x256x128_0_0_0
abbrev r1 : Rect S1x4096x128 := Rect.unit (s := S1x4096x128) ![0, 0, 0] S1x4096x128.size inb_S1x4096x128_S1x4096x128_0_0_0
abbrev r2 : Rect S1x256x1 := Rect.unit (s := S1x256x1) ![0, 0, 0] S1x256x1.size inb_S1x256x1_S1x256x1_0_0_0
abbrev r3 : Rect S1x1x4096 := Rect.unit (s := S1x1x4096) ![0, 0, 0] S1x1x4096.size inb_S1x1x4096_S1x1x4096_0_0_0
abbrev r4 : Rect S1x256x4096 := Rect.unit (s := S1x256x4096) ![0, 0, 0] S1x256x4096.size inb_S1x256x4096_S1x256x4096_0_0_0

/-! ## What the body leaves in the output window's buffer -/

/-- The output block after the body, from the four input blocks: its one store, whose value is the body's
    arithmetic of the four loads. -/
def out4 (x0 : Vec F S1x256x128 .bf16) (x1 : Vec F S1x4096x128 .bf16) (x2 : Vec F S1x256x1 .f32) (x3 : Vec F S1x1x4096 .f32) :
    Vec F S1x256x4096 .f32 :=
  View.canon [⟨r4, k0_pay1 (View.ld x0 r0) (View.ld x1 r1) (View.ld x2 r2) (View.ld x3 r3)⟩]

/-- The store covers the block. -/
theorem cover4 (p0 : Vec F S1x256x4096 .f32) (y : S1x256x4096.Idx) :
    ∃ pc ∈ ([⟨r4, p0⟩] : List (View.Piece (Elt F) S1x256x4096 .f32)), y ∈ pc.1.set :=
  View.cover_of_tiled [⟨r4, p0⟩] S1x256x4096.size (by rfl) y

/-! ## The proof data -/

/-- The proof data on core `c`: the arrays as the region finds them; after the body each input's buffer at its block
    and the output's at `out4` of the input blocks; the invariant the scoped rest and the generator register,
    untouched; nothing owed; the two windows on the shared array hold a half of it each, the others their array whole. -/
def dat0 (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => iblk V c 3 t
    | ⟨4, _⟩ => out4 (iblk V c 0 t) (iblk V c 1 t) (iblk V c 2 t) (iblk V c 3 t)
  Φ _ := Pipeline.ΦA spec0 c
  q w := match w with
    | ⟨0, _⟩ => fullShare.left
    | ⟨1, _⟩ => fullShare.right
    | ⟨2, _⟩ => fullShare
    | ⟨3, _⟩ => fullShare
    | ⟨4, _⟩ => fullShare
  owed _ := 0

theorem A_eq (c : Dev nD) (w : Fin cfg0.W) : (dat0 V c).A w = V c (Pipeline.arrRef spec0 w) := by
  dsimp only [dat0]

theorem after_0 (c : Dev nD) (t : Fin cfg0.N) : (dat0 V c).after 0 t = iblk V c 0 t := by dsimp only [dat0]
theorem after_1 (c : Dev nD) (t : Fin cfg0.N) : (dat0 V c).after 1 t = iblk V c 1 t := by dsimp only [dat0]
theorem after_2 (c : Dev nD) (t : Fin cfg0.N) : (dat0 V c).after 2 t = iblk V c 2 t := by dsimp only [dat0]
theorem after_3 (c : Dev nD) (t : Fin cfg0.N) : (dat0 V c).after 3 t = iblk V c 3 t := by dsimp only [dat0]
theorem after_4 (c : Dev nD) (t : Fin cfg0.N) :
    (dat0 V c).after 4 t = out4 (iblk V c 0 t) (iblk V c 1 t) (iblk V c 2 t) (iblk V c 3 t) := by dsimp only [dat0]

theorem before_0 (c : Dev nD) (t : Fin cfg0.N) (d) : (dat0 V c).before 0 t d = iblk V c 0 t :=
  before_of_0 V (dat0 V c) (A_eq V c 0) (after_0 V c) t d
theorem before_1 (c : Dev nD) (t : Fin cfg0.N) (d) : (dat0 V c).before 1 t d = iblk V c 1 t :=
  before_of_1 V (dat0 V c) (A_eq V c 1) (after_1 V c) t d
theorem before_2 (c : Dev nD) (t : Fin cfg0.N) (d) : (dat0 V c).before 2 t d = iblk V c 2 t :=
  before_of_2 V (dat0 V c) (A_eq V c 2) (after_2 V c) t d
theorem before_3 (c : Dev nD) (t : Fin cfg0.N) (d) : (dat0 V c).before 3 t d = iblk V c 3 t :=
  before_of_3 V (dat0 V c) (A_eq V c 3) (after_3 V c) t d

theorem share_0 (c : Dev nD) : (dat0 V c).share 0 = fullShare.left := rfl
theorem share_1 (c : Dev nD) : (dat0 V c).share 1 = fullShare.right := rfl
theorem share_2 (c : Dev nD) : (dat0 V c).share 2 = fullShare := rfl
theorem share_3 (c : Dev nD) : (dat0 V c).share 3 = fullShare := rfl
theorem share_4 (c : Dev nD) : (dat0 V c).share 4 = fullShare := rfl

end Cert.Kernel.Hand

end
-- ==== Proof.KBody.lean ====
/-
  The kernel body at one grid point, at any float instance.

  Handed the four input blocks in their staging buffers and anything in the output's buffer, the body loads the four
  blocks, computes one value of them and stores it over the whole output buffer; the inputs' buffers are left as they
  were. This is the obligation the pipeline asks of the body at every point, whatever the point.
-/
import proofs.«109996_j25864293057205_1_alg».proof.Proof.KData

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The body's triple -/

set_option maxHeartbeats 1000000 in
/-- The body on whole staging memrefs, the inputs' at read contents `x0 … x3` and the output's at anything, runs to the
    continuation holding the inputs' as they were and the output's at `out4` of the inputs'. -/
theorem sound_kernel (c : Dev nD) (E : Set ℕ) (i : grid0.Coords)
    (arg2 : Memref sig .tc .vmem S1x256x128 .bf16) (harg2 : arg2.IsWhole) (arg3 : Memref sig .tc .vmem S1x4096x128 .bf16) (harg3 : arg3.IsWhole)
    (arg4 : Memref sig .tc .vmem S1x256x1 .f32) (harg4 : arg4.IsWhole) (arg5 : Memref sig .tc .vmem S1x1x4096 .f32) (harg5 : arg5.IsWhole)
    (arg6 : Memref sig .tc .vmem S1x256x4096 .f32) (harg6 : arg6.IsWhole)
    (x0 : Vec F S1x256x128 .bf16) (x1 : Vec F S1x4096x128 .bf16) (x2 : Vec F S1x256x1 .f32) (x3 : Vec F S1x1x4096 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ (∃ d, owns (c : Thread nD τ) arg6 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare (out4 x0 x1 x2 x3)) -∗ K ⟨⟩))
      ⊢ wp frame (wpE (defs₀ (F := F)) Variants.none c none) E (cc0__tsm_kernel i arg2 harg2 arg3 harg3 arg4 harg4 arg5 harg5 arg6 harg6) K := by
  simp only [cc0__tsm_kernel_eq_skeleton]; unfold cc0__tsm_kernel_skel
  simp only [k0_part1_eq_skeleton]
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover4 _)

/-! ## The body obligation, at a generic point -/

/-- What the body is called with at point `t`, the windows one by one, -/
def bodyPre (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

/-- and what it returns. -/
def bodyPost (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

/-- The body at any point: the inputs' memrefs hold their blocks, so the triple applies; the invariant and the core's
    debts pass through unread. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1, before_2, before_3]
  rw [show (dat0 V c).Φ t.succ = (dat0 V c).Φ t.castSucc from rfl,
    show (dat0 V c).owesAt () t.succ = (dat0 V c).owesAt () t.castSucc from rfl,
    after_0, after_1, after_2, after_3, after_4]
  iintro ⟨HΦ, Ho, ⟨%d0, H0⟩, ⟨%d1, H1⟩, ⟨%d2, H2⟩, ⟨%d3, H3⟩, ⟨%d4, H4⟩⟩
  iapply (sound_kernel c Set.univ _ _ _ _ _ _ _ _ _ _ _ (iblk V c 0 t) (iblk V c 1 t) (iblk V c 2 t) (iblk V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The pipeline's body obligation, at every point. -/
theorem body_obligation (c : Dev nD) : BodyObligation (dat0 (F := F) V c) (defs₀ (F := F)) Variants.none () Set.univ := fun t => by
  rw [bigSep_W0, bigSep_W0]
  exact sound_body V c t

end Cert.Kernel.Hand

end
-- ==== Proof.KVals.lean ====
/-
  The buffer contents at each boundary of the program, at any float instance: a fold through the program from the
  launch memory. After the six host operations before the region their results are in place; after the region the
  result array holds what the region's write-backs left and every other buffer is as the region found it; after the
  one host operation behind the region its result is in place too.
-/
import proofs.«109996_j25864293057205_1_alg».proof.Proof.KData

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Core `c`'s buffers at launch. -/
abbrev W0 : Dev nD → Valuation τ sig (Elt F) := fun c b => (s₀ m ρ).mem ((c : Dev nD), b)
/-- After the host operations before the region (the region's entry). -/
abbrev W1 : Dev nD → Valuation τ sig (Elt F) := fun c => StableHlo.after hostOps0 (W0 m ρ c)
/-- The same read at the TensorCore's references (what the region's proof data take). -/
abbrev V1 : (c : Dev nD) → (b : Ref sig .tc) → Buf (Elt F) ((c : Thread nD τ).loc b) := fun c b => W1 m ρ c b
/-- At the region's exit: the result array at what the write-backs leave, every other buffer as entered (the region
    writes no other array: its four inputs are only read). -/
def W2 (c : Dev nD) : Valuation τ sig (Elt F) :=
  Function.update (W1 m ρ c) (Proc.devRef .tc main_v5) ((dat0 (V1 m ρ) c).arrAt 4 cfg0.N)
theorem W2_v5 (c : Dev nD) : W2 m ρ c (Proc.devRef .tc main_v5) = (dat0 (V1 m ρ) c).arrAt 4 cfg0.N := by
  unfold W2; exact Function.update_self ..
theorem W2_of_ne (c : Dev nD) (b : Ref sig .tc) (hb : b ≠ main_v5) : W2 m ρ c (Proc.devRef .tc b) = W1 m ρ c (Proc.devRef .tc b) := by
  unfold W2; exact Function.update_of_ne (StableHlo.devRef_ne_of_ne hb) ..
/-- The same read at the TensorCore's references. -/
abbrev V2 : (c : Dev nD) → (b : Ref sig .tc) → Buf (Elt F) ((c : Thread nD τ).loc b) := fun c b => W2 m ρ c b
/-- After the host operation behind the region (the program's end). -/
abbrev W3 : Dev nD → Valuation τ sig (Elt F) := fun c => StableHlo.after hostOps1 (W2 m ρ c)

end Cert.Kernel.Hand

end
-- ==== Proof.KRun.lean ====
/-
  The whole run of the program, at any float instance.

  The program is six host operations, the kernel region, and one host operation. Between these three stretches the core
  holds every buffer of the program that outlives the region, whole, at contents that are a fold through the program:
  the launch memory; after the first stretch, those operations' results; after the region, the same except that the
  result array holds what the 64 write-backs left; after the last stretch, its result.
  Entering the region, the buffers behind its five windows are taken out of that holding. Two windows read ONE array:
  the array's points-to is split into halves, one per window, and the halves are joined again at the exit (the array is
  never written, so both halves come back at the contents that went in). The other three arrays go in and out whole.
  The end state is read against the final memory: every such buffer holds the last fold's contents.
-/
import proofs.«109996_j25864293057205_1_alg».proof.Proof.KBody
import proofs.«109996_j25864293057205_1_alg».proof.Proof.KVals

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The windows' arrays out of the core's buffers and back -/

section Arrays

variable (V : (c : Dev nD) → (b : Ref sig .tc) → Buf (Elt F) ((c : Thread nD τ).loc b))

/-- The five windows sit on four buffers. -/
theorem img_eq : (Finset.univ.image (Pipeline.arrRef spec0) : Finset (Ref sig .tc)) = [main_v4, main_v2, main_v3, main_v5].toFinset := by decide

/-- The distinct buffers behind the five windows, one by one. -/
theorem bigSep_arrs {M : Type} [URA M] (Φ : Ref sig .tc → sProp M) :
    bigSep (Finset.univ.image (Pipeline.arrRef spec0)) Φ = iprop(Φ main_v4 ∗ Φ main_v2 ∗ Φ main_v3 ∗ Φ main_v5) :=
  bigSep_eq_bigSepL_of_eq [main_v4, main_v2, main_v3, main_v5] img_eq (by decide) Φ

/-- Before any write-back an array holds what the region found in it. -/
theorem arrAt_zero (c : Dev nD) (w : Fin cfg0.W) : (dat0 V c).arrAt w 0 = V c (Pipeline.arrRef spec0 w) := A_eq V c w

/-- An input's array is never written: after all the points it still holds what the region found in it. -/
theorem arrAt_in_0 (c : Dev nD) : (dat0 V c).arrAt 0 cfg0.N = V c main_v4 := ((dat0 V c).arrAt_in 0 rfl _).trans (A_eq V c 0)
theorem arrAt_in_1 (c : Dev nD) : (dat0 V c).arrAt 1 cfg0.N = V c main_v4 := ((dat0 V c).arrAt_in 1 rfl _).trans (A_eq V c 1)
theorem arrAt_in_2 (c : Dev nD) : (dat0 V c).arrAt 2 cfg0.N = V c main_v2 := ((dat0 V c).arrAt_in 2 rfl _).trans (A_eq V c 2)
theorem arrAt_in_3 (c : Dev nD) : (dat0 V c).arrAt 3 cfg0.N = V c main_v3 := ((dat0 V c).arrAt_in 3 rfl _).trans (A_eq V c 3)

/-- ENTRY: the four buffers, each whole, make the five windows' arrays at the entry contents — the shared one halved. -/
theorem entry_split (c : Dev nD) :
    (Pipeline.arrBufs (Ix := Unit) (Name := ℕ) (U := UR sig nD τ) (Lvl := ℕ) spec0 c (V c) : sProp 𝕄) ⊢ (dat0 V c).arrays ((dat0 V c).arrAt · 0) := by
  unfold Dat.arrays Pipeline.arrBufs
  rw [bigSep_W0, bigSep_arrs]
  rw [share_0, share_1, share_2, share_3, share_4]
  rw [(arr_whole0 0).set_eq_univ, (arr_whole0 2).set_eq_univ, (arr_whole0 3).set_eq_univ, (arr_whole0 4).set_eq_univ]
  beta_reduce
  rw [arrAt_zero, arrAt_zero, arrAt_zero, arrAt_zero, arrAt_zero]
  iintro ⟨H4, H2, H3, H5⟩
  ihave Hs := (pointsTo_share (PosShare.mem_left_op_right fullShare)).1 $$ H4
  icases Hs with ⟨Hl, Hr⟩
  isplitl [Hl]; · iexact Hl
  isplitl [Hr]; · iexact Hr
  isplitl [H2]; · iexact H2
  isplitl [H3]; · iexact H3
  iexact H5

/-- EXIT: the five windows' arrays after the last point make the four buffers whole again, the inputs' at the entry
    contents (the halves of the shared one joined), the result's at what the write-backs left. -/
theorem exit_join (c : Dev nD) :
    (dat0 V c).arrays ((dat0 V c).arrAt · cfg0.N)
      ⊢ (iprop((((c : Thread nD τ).loc main_v4) ↦{fullShare} V c main_v4) ∗ (((c : Thread nD τ).loc main_v2) ↦{fullShare} V c main_v2)
          ∗ (((c : Thread nD τ).loc main_v3) ↦{fullShare} V c main_v3) ∗ (((c : Thread nD τ).loc main_v5) ↦{fullShare} (dat0 V c).arrAt 4 cfg0.N)) : sProp 𝕄) := by
  unfold Dat.arrays
  rw [bigSep_W0]
  rw [share_0, share_1, share_2, share_3, share_4]
  rw [(arr_whole0 0).set_eq_univ, (arr_whole0 2).set_eq_univ, (arr_whole0 3).set_eq_univ, (arr_whole0 4).set_eq_univ]
  beta_reduce
  rw [arrAt_in_0, arrAt_in_1, arrAt_in_2, arrAt_in_3]
  iintro ⟨Hl, Hr, H2, H3, H5⟩
  isplitl [Hl Hr]
  · iapply (pointsTo_share (PosShare.mem_left_op_right fullShare)).2
    isplitl [Hl]; · iexact Hl
    iexact Hr
  isplitl [H2]; · iexact H2
  isplitl [H3]; · iexact H3
  iexact H5

end Arrays

/-! ## The proof data family and the thread state -/

/-- The prefetched tables' admissible contents: the pipeline has no table. -/
abbrev adm : (p : Fin 1) → (pcfgs (F := F) p).Adm := fun p => (cfgs p).toPCfg_adm
/-- The one pipeline's proof data, at its region's entry contents. -/
def pdats : (p : Fin 1) → (c : Dev nD) → Dat τ (Elt F) Unit ℕ (UR sig nD τ) ℕ (Pipeline.pin (pcfgs (F := F)) adm p) c
  | ⟨0, _⟩ => fun c => dat0 (V1 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every stretch: the core's generator register at some state and its debts,
    none. -/
abbrev R (c : Dev nD) : sProp 𝕄 := iprop((∃ r, prngReg c r) ∗ ∃ W, owes (c : Thread nD τ) (0 : CellTallies nD τ sig Unit) W)
/-- A stretch of host operations as a segment: over the buffers that outlive the region, from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- No host operation allocates a buffer. -/
theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
/-- A buffer that outlives the region is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the debts. -/
abbrev Tₙ (c : Dev nD) : sProp 𝕄 := iprop(StableHlo.held (c : Thread nD τ) (Pipeline.ucRefs τ sig) (W3 m ρ c) ∗ ∃ r, prngReg c r)

/-! ## The region's entry and exit over the thread state -/

/-- The buffers that are no window's array hold the same at the region's exit as at its entry. -/
theorem rest_exit (c : Dev nD) :
    (Pipeline.unscopedRest (Ix := Unit) (Name := ℕ) (U := UR sig nD τ) (Lvl := ℕ) spec0 c (V2 m ρ c) : sProp 𝕄)
      = Pipeline.unscopedRest spec0 c (V1 m ρ c) := by
  unfold Pipeline.unscopedRest
  exact bigSep_congr fun b hb => by
    rw [show V2 m ρ c b = V1 m ρ c b from W2_of_ne m ρ c b fun e => (Finset.mem_sdiff.mp hb).2 (e ▸ Finset.mem_image.mpr ⟨4, Finset.mem_univ _, rfl⟩)]

/-- ENTRY over all the buffers: held whole at the entry contents, they are the windows' arrays and the rest. -/
theorem entry_all (c : Dev nD) :
    (StableHlo.held (c : Thread nD τ) (Pipeline.ucRefs τ sig) (W1 m ρ c) : sProp 𝕄)
      ⊢ iprop((dat0 (V1 m ρ) c).arrays ((dat0 (V1 m ρ) c).arrAt · 0) ∗ Pipeline.unscopedRest spec0 c (V1 m ρ c)) := by
  rw [← Pipeline.unscopedBufs_held (Ix := Unit) (Name := ℕ) (U := UR sig nD τ) (Lvl := ℕ) c (W1 m ρ c),
    Pipeline.unscopedBufs_split₀ cfgs 0 winFacts₀0.arr_unscoped c (V1 m ρ c)]
  exact sep_mono (entry_split (V1 m ρ) c) .rfl

/-- EXIT over all the buffers: the windows' arrays after the last point and the rest are all the buffers, held whole
    at the exit contents. -/
theorem exit_all (c : Dev nD) :
    iprop((dat0 (V1 m ρ) c).arrays ((dat0 (V1 m ρ) c).arrAt · cfg0.N) ∗ Pipeline.unscopedRest spec0 c (V1 m ρ c))
      ⊢ (StableHlo.held (c : Thread nD τ) (Pipeline.ucRefs τ sig) (W2 m ρ c) : sProp 𝕄) := by
  rw [← Pipeline.unscopedBufs_held (Ix := Unit) (Name := ℕ) (U := UR sig nD τ) (Lvl := ℕ) c (W2 m ρ c),
    Pipeline.unscopedBufs_split₀ cfgs 0 winFacts₀0.arr_unscoped c (V2 m ρ c), rest_exit]
  refine sep_mono ((exit_join (V1 m ρ) c).trans ?_) .rfl
  unfold Pipeline.arrBufs
  rw [bigSep_arrs]
  rw [show V2 m ρ c main_v4 = V1 m ρ c main_v4 from W2_of_ne m ρ c main_v4 (by decide),
    show V2 m ρ c main_v2 = V1 m ρ c main_v2 from W2_of_ne m ρ c main_v2 (by decide),
    show V2 m ρ c main_v3 = V1 m ρ c main_v3 from W2_of_ne m ρ c main_v3 (by decide),
    show V2 m ρ c main_v5 = (dat0 (V1 m ρ) c).arrAt 4 cfg0.N from W2_v5 m ρ c]

/-! ## The region as a segment -/

set_option backward.isDefEq.respectTransparency.types false in
/-- The region over the thread state: entered from every buffer at the entry contents, left at the exit contents.
    Its arrays are taken out of the buffers and put back; the generator register goes into the body's invariant and
    out; nothing is owed; the kernel has no semaphore of its own. -/
def reg0 : Pipeline.RegionSeg (pcfgs (F := F)) adm (pdats m ρ) () defs₀ 𝒱₀ L lv 0 where
  win := winFacts₀0
  block_pos := block_pos0
  stage_whole := stage_whole0
  K := PEmpty
  osem k := k.elim
  ho := Pipeline.OwnSemFacts.none _
  hbody c := (body_obligation (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit : (StableHlo.held (c : Thread nD τ) (Pipeline.ucRefs τ sig) (W1 m ρ c) : sProp 𝕄)
        ⊢ iprop((pdats m ρ 0 c).arrays ((pdats m ρ 0 c).arrAt · 0) ∗ Pipeline.unscopedRest spec0 c (V1 m ρ c)) := entry_all m ρ c
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin : iprop((pdats m ρ 0 c).arrays ((pdats m ρ 0 c).arrAt · cfg0.N) ∗ Pipeline.unscopedRest spec0 c (V1 m ρ c))
        ⊢ (StableHlo.held (c : Thread nD τ) (Pipeline.ucRefs τ sig) (W2 m ρ c) : sProp 𝕄) := exit_all m ρ c
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

/-! ## The program as segments, and the launch -/

/-- The program's three segments in order. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)) ]
/-- The program IS the run of the segments. -/
theorem main_run (c : Dev nD) : main (F := F) c = Pipeline.Seg.run (segs m ρ) := (main_chain c).trans (by chain_rfl)

set_option backward.isDefEq.respectTransparency.types false in
/-- THE RUN: from any memory with zero counters, every weakly fair execution of the program terminates, nothing
    faulting, and in every final state each buffer that outlives the region holds the last fold's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W3 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun c => by
      show iprop(StableHlo.held (c : Thread nD τ) (Pipeline.ucRefs τ sig) (W3 m ρ c) ∗ R c)
        ⊢ iprop(Tₙ m ρ c ∗ ∃ W, owes (c : Thread nD τ) (0 : CellTallies nD τ sig Unit) W)
      iintro ⟨Hh, Hp, Ho⟩
      isplitl [Hh Hp]
      · isplitl [Hh]; · iexact Hh
        iexact Hp
      iexact Ho⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c => h c)

/-! ## The argument ends as launched -/

/-- No host operation and no write-back writes the argument: through the fold its buffer holds the launch contents. -/
theorem W3_main_arg0 (c : Dev nD) : W3 m ρ c (Proc.devRef .tc main_arg0) = m ((c : Thread nD τ).loc main_arg0) :=
  calc W3 m ρ c (Proc.devRef .tc main_arg0)
    _ = W2 m ρ c (Proc.devRef .tc main_arg0) := StableHlo.after_of_forall_not_mem (b := Proc.devRef .tc main_arg0) _ _ (List.forall_iff_forall_mem.mp (by
          simp only [hostOps1, List.Forall, StableHlo.nullary_writes, StableHlo.unary_writes, StableHlo.binary_writes, Finset.mem_singleton]
          repeat' apply And.intro
          all_goals exact StableHlo.devRef_ne_of_ne (by decide)))
    _ = W1 m ρ c (Proc.devRef .tc main_arg0) := W2_of_ne m ρ c main_arg0 (by decide)
    _ = W0 m ρ c (Proc.devRef .tc main_arg0) := StableHlo.after_of_forall_not_mem (b := Proc.devRef .tc main_arg0) _ _ (List.forall_iff_forall_mem.mp (by
          simp only [hostOps0, List.Forall, StableHlo.nullary_writes, StableHlo.unary_writes, StableHlo.binary_writes, Finset.mem_singleton]
          repeat' apply And.intro
          all_goals exact StableHlo.devRef_ne_of_ne (by decide)))
    _ = m ((c : Thread nD τ).loc main_arg0) := rfl

/-- THE FRAME, at any float instance: the program runs to the end, nothing faulting, and its argument array ends as
    launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun r h c => (h c _ (mem_uc main_arg0 (by decide))).trans (W3_main_arg0 m ρ c)) (run_all m ρ)

end Cert.Kernel.Hand

end
-- ==== Proof.KiData.lean ====
/-
  The proof data of the kernel region, at any float instance.

  The region has five windows on a 4 × 16 grid. Windows 0 and 1 are both cut out of ONE array, the rounded copy of the
  input: window 0 is the 256 query rows of the point, window 1 all 4096 key rows of the point's batch. Windows 2 and 3
  are the squared norms as a column for the query rows and as a row for the key rows; window 4 is the 256 × 4096 block of
  the result the point writes. The body reads the four input blocks whole and stores ONE value into the output block,
  so after the body the output's staging buffer holds that value of the four input blocks and every input's buffer
  holds its block as before. Because two input windows sit on one array, each holds half of it: the array is only read.
-/
import proofs.«109996_j25864293057205_1_alg».proof.Proof.Gen.KernelIdeal.Launch
import proofs.«109996_j25864293057205_1_alg».proof.Proof.Gen.KernelIdeal.Skeleton
import proofs.«109996_j25864293057205_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window whose body leaves its block in place holds its block at every point, fetched there or not: where
    it is not fetched the block index has not moved, so the buffer still holds this point's block. One statement per
    input window, each at its own block shape. -/
theorem before_of_0 {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_of_1 {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_of_2 {c : Dev nD} (dat : Dat τ (Elt F) Unit ℕ (UR sig nD τ) ℕ cfg0 c) (hA : dat.A 2 = V c (Pipeline.arrRef spec0 2))
    (hafter : ∀ t, dat.after 2 t = iblk V c 2 t) (t : Fin cfg0.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_of_3 {c : Dev nD} (dat : Dat τ (Elt F) Unit ℕ (UR sig nD τ) ℕ cfg0 c) (hA : dat.A 3 = V c (Pipeline.arrRef spec0 3))
    (hafter : ∀ t, dat.after 3 t = iblk V c 3 t) (t : Fin cfg0.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The body's accesses: every window is read or written whole -/

abbrev r0 : Rect S1x256x128 := Rect.unit (s := S1x256x128) ![0, 0, 0] S1x256x128.size inb_S1x256x128_S1x256x128_0_0_0
abbrev r1 : Rect S1x4096x128 := Rect.unit (s := S1x4096x128) ![0, 0, 0] S1x4096x128.size inb_S1x4096x128_S1x4096x128_0_0_0
abbrev r2 : Rect S1x256x1 := Rect.unit (s := S1x256x1) ![0, 0, 0] S1x256x1.size inb_S1x256x1_S1x256x1_0_0_0
abbrev r3 : Rect S1x1x4096 := Rect.unit (s := S1x1x4096) ![0, 0, 0] S1x1x4096.size inb_S1x1x4096_S1x1x4096_0_0_0
abbrev r4 : Rect S1x256x4096 := Rect.unit (s := S1x256x4096) ![0, 0, 0] S1x256x4096.size inb_S1x256x4096_S1x256x4096_0_0_0

/-! ## What the body leaves in the output window's buffer -/

/-- The output block after the body, from the four input blocks: its one store, whose value is the body's
    arithmetic of the four loads. -/
def out4 (x0 : Vec F S1x256x128 .bf16) (x1 : Vec F S1x4096x128 .bf16) (x2 : Vec F S1x256x1 .f32) (x3 : Vec F S1x1x4096 .f32) :
    Vec F S1x256x4096 .f32 :=
  View.canon [⟨r4, k0_pay1 (View.ld x0 r0) (View.ld x1 r1) (View.ld x2 r2) (View.ld x3 r3)⟩]

/-- The store covers the block. -/
theorem cover4 (p0 : Vec F S1x256x4096 .f32) (y : S1x256x4096.Idx) :
    ∃ pc ∈ ([⟨r4, p0⟩] : List (View.Piece (Elt F) S1x256x4096 .f32)), y ∈ pc.1.set :=
  View.cover_of_tiled [⟨r4, p0⟩] S1x256x4096.size (by rfl) y

/-! ## The proof data -/

/-- The proof data on core `c`: the arrays as the region finds them; after the body each input's buffer at its block
    and the output's at `out4` of the input blocks; the invariant the scoped rest and the generator register,
    untouched; nothing owed; the two windows on the shared array hold a half of it each, the others their array whole. -/
def dat0 (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => iblk V c 3 t
    | ⟨4, _⟩ => out4 (iblk V c 0 t) (iblk V c 1 t) (iblk V c 2 t) (iblk V c 3 t)
  Φ _ := Pipeline.ΦA spec0 c
  q w := match w with
    | ⟨0, _⟩ => fullShare.left
    | ⟨1, _⟩ => fullShare.right
    | ⟨2, _⟩ => fullShare
    | ⟨3, _⟩ => fullShare
    | ⟨4, _⟩ => fullShare
  owed _ := 0

theorem A_eq (c : Dev nD) (w : Fin cfg0.W) : (dat0 V c).A w = V c (Pipeline.arrRef spec0 w) := by
  dsimp only [dat0]

theorem after_0 (c : Dev nD) (t : Fin cfg0.N) : (dat0 V c).after 0 t = iblk V c 0 t := by dsimp only [dat0]
theorem after_1 (c : Dev nD) (t : Fin cfg0.N) : (dat0 V c).after 1 t = iblk V c 1 t := by dsimp only [dat0]
theorem after_2 (c : Dev nD) (t : Fin cfg0.N) : (dat0 V c).after 2 t = iblk V c 2 t := by dsimp only [dat0]
theorem after_3 (c : Dev nD) (t : Fin cfg0.N) : (dat0 V c).after 3 t = iblk V c 3 t := by dsimp only [dat0]
theorem after_4 (c : Dev nD) (t : Fin cfg0.N) :
    (dat0 V c).after 4 t = out4 (iblk V c 0 t) (iblk V c 1 t) (iblk V c 2 t) (iblk V c 3 t) := by dsimp only [dat0]

theorem before_0 (c : Dev nD) (t : Fin cfg0.N) (d) : (dat0 V c).before 0 t d = iblk V c 0 t :=
  before_of_0 V (dat0 V c) (A_eq V c 0) (after_0 V c) t d
theorem before_1 (c : Dev nD) (t : Fin cfg0.N) (d) : (dat0 V c).before 1 t d = iblk V c 1 t :=
  before_of_1 V (dat0 V c) (A_eq V c 1) (after_1 V c) t d
theorem before_2 (c : Dev nD) (t : Fin cfg0.N) (d) : (dat0 V c).before 2 t d = iblk V c 2 t :=
  before_of_2 V (dat0 V c) (A_eq V c 2) (after_2 V c) t d
theorem before_3 (c : Dev nD) (t : Fin cfg0.N) (d) : (dat0 V c).before 3 t d = iblk V c 3 t :=
  before_of_3 V (dat0 V c) (A_eq V c 3) (after_3 V c) t d

theorem share_0 (c : Dev nD) : (dat0 V c).share 0 = fullShare.left := rfl
theorem share_1 (c : Dev nD) : (dat0 V c).share 1 = fullShare.right := rfl
theorem share_2 (c : Dev nD) : (dat0 V c).share 2 = fullShare := rfl
theorem share_3 (c : Dev nD) : (dat0 V c).share 3 = fullShare := rfl
theorem share_4 (c : Dev nD) : (dat0 V c).share 4 = fullShare := rfl

end Cert.KernelIdeal.Hand

end
-- ==== Proof.KiBody.lean ====
/-
  The kernel body at one grid point, at any float instance.

  Handed the four input blocks in their staging buffers and anything in the output's buffer, the body loads the four
  blocks, computes one value of them and stores it over the whole output buffer; the inputs' buffers are left as they
  were. This is the obligation the pipeline asks of the body at every point, whatever the point.
-/
import proofs.«109996_j25864293057205_1_alg».proof.Proof.KiData

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The body's triple -/

set_option maxHeartbeats 1000000 in
/-- The body on whole staging memrefs, the inputs' at read contents `x0 … x3` and the output's at anything, runs to the
    continuation holding the inputs' as they were and the output's at `out4` of the inputs'. -/
theorem sound_kernel (c : Dev nD) (E : Set ℕ) (i : grid0.Coords)
    (arg2 : Memref sig .tc .vmem S1x256x128 .bf16) (harg2 : arg2.IsWhole) (arg3 : Memref sig .tc .vmem S1x4096x128 .bf16) (harg3 : arg3.IsWhole)
    (arg4 : Memref sig .tc .vmem S1x256x1 .f32) (harg4 : arg4.IsWhole) (arg5 : Memref sig .tc .vmem S1x1x4096 .f32) (harg5 : arg5.IsWhole)
    (arg6 : Memref sig .tc .vmem S1x256x4096 .f32) (harg6 : arg6.IsWhole)
    (x0 : Vec F S1x256x128 .bf16) (x1 : Vec F S1x4096x128 .bf16) (x2 : Vec F S1x256x1 .f32) (x3 : Vec F S1x1x4096 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ (∃ d, owns (c : Thread nD τ) arg6 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare (out4 x0 x1 x2 x3)) -∗ K ⟨⟩))
      ⊢ wp frame (wpE (defs₀ (F := F)) Variants.none c none) E (cc0__tsm_kernel i arg2 harg2 arg3 harg3 arg4 harg4 arg5 harg5 arg6 harg6) K := by
  simp only [cc0__tsm_kernel_eq_skeleton]; unfold cc0__tsm_kernel_skel
  simp only [k0_part1_eq_skeleton]
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover4 _)

/-! ## The body obligation, at a generic point -/

/-- What the body is called with at point `t`, the windows one by one, -/
def bodyPre (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

/-- and what it returns. -/
def bodyPost (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

/-- The body at any point: the inputs' memrefs hold their blocks, so the triple applies; the invariant and the core's
    debts pass through unread. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1, before_2, before_3]
  rw [show (dat0 V c).Φ t.succ = (dat0 V c).Φ t.castSucc from rfl,
    show (dat0 V c).owesAt () t.succ = (dat0 V c).owesAt () t.castSucc from rfl,
    after_0, after_1, after_2, after_3, after_4]
  iintro ⟨HΦ, Ho, ⟨%d0, H0⟩, ⟨%d1, H1⟩, ⟨%d2, H2⟩, ⟨%d3, H3⟩, ⟨%d4, H4⟩⟩
  iapply (sound_kernel c Set.univ _ _ _ _ _ _ _ _ _ _ _ (iblk V c 0 t) (iblk V c 1 t) (iblk V c 2 t) (iblk V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The pipeline's body obligation, at every point. -/
theorem body_obligation (c : Dev nD) : BodyObligation (dat0 (F := F) V c) (defs₀ (F := F)) Variants.none () Set.univ := fun t => by
  rw [bigSep_W0, bigSep_W0]
  exact sound_body V c t

end Cert.KernelIdeal.Hand

end
-- ==== Proof.KiVals.lean ====
/-
  The buffer contents at each boundary of the program, at any float instance: a fold through the program from the
  launch memory. After the six host operations before the region their results are in place; after the region the
  result array holds what the region's write-backs left and every other buffer is as the region found it; after the
  one host operation behind the region its result is in place too.
-/
import proofs.«109996_j25864293057205_1_alg».proof.Proof.KiData

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Core `c`'s buffers at launch. -/
abbrev W0 : Dev nD → Valuation τ sig (Elt F) := fun c b => (s₀ m ρ).mem ((c : Dev nD), b)
/-- After the host operations before the region (the region's entry). -/
abbrev W1 : Dev nD → Valuation τ sig (Elt F) := fun c => StableHlo.after hostOps0 (W0 m ρ c)
/-- The same read at the TensorCore's references (what the region's proof data take). -/
abbrev V1 : (c : Dev nD) → (b : Ref sig .tc) → Buf (Elt F) ((c : Thread nD τ).loc b) := fun c b => W1 m ρ c b
/-- At the region's exit: the result array at what the write-backs leave, every other buffer as entered (the region
    writes no other array: its four inputs are only read). -/
def W2 (c : Dev nD) : Valuation τ sig (Elt F) :=
  Function.update (W1 m ρ c) (Proc.devRef .tc main_v5) ((dat0 (V1 m ρ) c).arrAt 4 cfg0.N)
theorem W2_v5 (c : Dev nD) : W2 m ρ c (Proc.devRef .tc main_v5) = (dat0 (V1 m ρ) c).arrAt 4 cfg0.N := by
  unfold W2; exact Function.update_self ..
theorem W2_of_ne (c : Dev nD) (b : Ref sig .tc) (hb : b ≠ main_v5) : W2 m ρ c (Proc.devRef .tc b) = W1 m ρ c (Proc.devRef .tc b) := by
  unfold W2; exact Function.update_of_ne (StableHlo.devRef_ne_of_ne hb) ..
/-- The same read at the TensorCore's references. -/
abbrev V2 : (c : Dev nD) → (b : Ref sig .tc) → Buf (Elt F) ((c : Thread nD τ).loc b) := fun c b => W2 m ρ c b
/-- After the host operation behind the region (the program's end). -/
abbrev W3 : Dev nD → Valuation τ sig (Elt F) := fun c => StableHlo.after hostOps1 (W2 m ρ c)

end Cert.KernelIdeal.Hand

end
-- ==== Proof.KiRun.lean ====
/-
  The whole run of the program, at any float instance.

  The program is six host operations, the kernel region, and one host operation. Between these three stretches the core
  holds every buffer of the program that outlives the region, whole, at contents that are a fold through the program:
  the launch memory; after the first stretch, those operations' results; after the region, the same except that the
  result array holds what the 64 write-backs left; after the last stretch, its result.
  Entering the region, the buffers behind its five windows are taken out of that holding. Two windows read ONE array:
  the array's points-to is split into halves, one per window, and the halves are joined again at the exit (the array is
  never written, so both halves come back at the contents that went in). The other three arrays go in and out whole.
  The end state is read against the final memory: every such buffer holds the last fold's contents.
-/
import proofs.«109996_j25864293057205_1_alg».proof.Proof.KiBody
import proofs.«109996_j25864293057205_1_alg».proof.Proof.KiVals

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The windows' arrays out of the core's buffers and back -/

section Arrays

variable (V : (c : Dev nD) → (b : Ref sig .tc) → Buf (Elt F) ((c : Thread nD τ).loc b))

/-- The five windows sit on four buffers. -/
theorem img_eq : (Finset.univ.image (Pipeline.arrRef spec0) : Finset (Ref sig .tc)) = [main_v4, main_v2, main_v3, main_v5].toFinset := by decide

/-- The distinct buffers behind the five windows, one by one. -/
theorem bigSep_arrs {M : Type} [URA M] (Φ : Ref sig .tc → sProp M) :
    bigSep (Finset.univ.image (Pipeline.arrRef spec0)) Φ = iprop(Φ main_v4 ∗ Φ main_v2 ∗ Φ main_v3 ∗ Φ main_v5) :=
  bigSep_eq_bigSepL_of_eq [main_v4, main_v2, main_v3, main_v5] img_eq (by decide) Φ

/-- Before any write-back an array holds what the region found in it. -/
theorem arrAt_zero (c : Dev nD) (w : Fin cfg0.W) : (dat0 V c).arrAt w 0 = V c (Pipeline.arrRef spec0 w) := A_eq V c w

/-- An input's array is never written: after all the points it still holds what the region found in it. -/
theorem arrAt_in_0 (c : Dev nD) : (dat0 V c).arrAt 0 cfg0.N = V c main_v4 := ((dat0 V c).arrAt_in 0 rfl _).trans (A_eq V c 0)
theorem arrAt_in_1 (c : Dev nD) : (dat0 V c).arrAt 1 cfg0.N = V c main_v4 := ((dat0 V c).arrAt_in 1 rfl _).trans (A_eq V c 1)
theorem arrAt_in_2 (c : Dev nD) : (dat0 V c).arrAt 2 cfg0.N = V c main_v2 := ((dat0 V c).arrAt_in 2 rfl _).trans (A_eq V c 2)
theorem arrAt_in_3 (c : Dev nD) : (dat0 V c).arrAt 3 cfg0.N = V c main_v3 := ((dat0 V c).arrAt_in 3 rfl _).trans (A_eq V c 3)

/-- ENTRY: the four buffers, each whole, make the five windows' arrays at the entry contents — the shared one halved. -/
theorem entry_split (c : Dev nD) :
    (Pipeline.arrBufs (Ix := Unit) (Name := ℕ) (U := UR sig nD τ) (Lvl := ℕ) spec0 c (V c) : sProp 𝕄) ⊢ (dat0 V c).arrays ((dat0 V c).arrAt · 0) := by
  unfold Dat.arrays Pipeline.arrBufs
  rw [bigSep_W0, bigSep_arrs]
  rw [share_0, share_1, share_2, share_3, share_4]
  rw [(arr_whole0 0).set_eq_univ, (arr_whole0 2).set_eq_univ, (arr_whole0 3).set_eq_univ, (arr_whole0 4).set_eq_univ]
  beta_reduce
  rw [arrAt_zero, arrAt_zero, arrAt_zero, arrAt_zero, arrAt_zero]
  iintro ⟨H4, H2, H3, H5⟩
  ihave Hs := (pointsTo_share (PosShare.mem_left_op_right fullShare)).1 $$ H4
  icases Hs with ⟨Hl, Hr⟩
  isplitl [Hl]; · iexact Hl
  isplitl [Hr]; · iexact Hr
  isplitl [H2]; · iexact H2
  isplitl [H3]; · iexact H3
  iexact H5

/-- EXIT: the five windows' arrays after the last point make the four buffers whole again, the inputs' at the entry
    contents (the halves of the shared one joined), the result's at what the write-backs left. -/
theorem exit_join (c : Dev nD) :
    (dat0 V c).arrays ((dat0 V c).arrAt · cfg0.N)
      ⊢ (iprop((((c : Thread nD τ).loc main_v4) ↦{fullShare} V c main_v4) ∗ (((c : Thread nD τ).loc main_v2) ↦{fullShare} V c main_v2)
          ∗ (((c : Thread nD τ).loc main_v3) ↦{fullShare} V c main_v3) ∗ (((c : Thread nD τ).loc main_v5) ↦{fullShare} (dat0 V c).arrAt 4 cfg0.N)) : sProp 𝕄) := by
  unfold Dat.arrays
  rw [bigSep_W0]
  rw [share_0, share_1, share_2, share_3, share_4]
  rw [(arr_whole0 0).set_eq_univ, (arr_whole0 2).set_eq_univ, (arr_whole0 3).set_eq_univ, (arr_whole0 4).set_eq_univ]
  beta_reduce
  rw [arrAt_in_0, arrAt_in_1, arrAt_in_2, arrAt_in_3]
  iintro ⟨Hl, Hr, H2, H3, H5⟩
  isplitl [Hl Hr]
  · iapply (pointsTo_share (PosShare.mem_left_op_right fullShare)).2
    isplitl [Hl]; · iexact Hl
    iexact Hr
  isplitl [H2]; · iexact H2
  isplitl [H3]; · iexact H3
  iexact H5

end Arrays

/-! ## The proof data family and the thread state -/

/-- The prefetched tables' admissible contents: the pipeline has no table. -/
abbrev adm : (p : Fin 1) → (pcfgs (F := F) p).Adm := fun p => (cfgs p).toPCfg_adm
/-- The one pipeline's proof data, at its region's entry contents. -/
def pdats : (p : Fin 1) → (c : Dev nD) → Dat τ (Elt F) Unit ℕ (UR sig nD τ) ℕ (Pipeline.pin (pcfgs (F := F)) adm p) c
  | ⟨0, _⟩ => fun c => dat0 (V1 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every stretch: the core's generator register at some state and its debts,
    none. -/
abbrev R (c : Dev nD) : sProp 𝕄 := iprop((∃ r, prngReg c r) ∗ ∃ W, owes (c : Thread nD τ) (0 : CellTallies nD τ sig Unit) W)
/-- A stretch of host operations as a segment: over the buffers that outlive the region, from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- No host operation allocates a buffer. -/
theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
/-- A buffer that outlives the region is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the debts. -/
abbrev Tₙ (c : Dev nD) : sProp 𝕄 := iprop(StableHlo.held (c : Thread nD τ) (Pipeline.ucRefs τ sig) (W3 m ρ c) ∗ ∃ r, prngReg c r)

/-! ## The region's entry and exit over the thread state -/

/-- The buffers that are no window's array hold the same at the region's exit as at its entry. -/
theorem rest_exit (c : Dev nD) :
    (Pipeline.unscopedRest (Ix := Unit) (Name := ℕ) (U := UR sig nD τ) (Lvl := ℕ) spec0 c (V2 m ρ c) : sProp 𝕄)
      = Pipeline.unscopedRest spec0 c (V1 m ρ c) := by
  unfold Pipeline.unscopedRest
  exact bigSep_congr fun b hb => by
    rw [show V2 m ρ c b = V1 m ρ c b from W2_of_ne m ρ c b fun e => (Finset.mem_sdiff.mp hb).2 (e ▸ Finset.mem_image.mpr ⟨4, Finset.mem_univ _, rfl⟩)]

/-- ENTRY over all the buffers: held whole at the entry contents, they are the windows' arrays and the rest. -/
theorem entry_all (c : Dev nD) :
    (StableHlo.held (c : Thread nD τ) (Pipeline.ucRefs τ sig) (W1 m ρ c) : sProp 𝕄)
      ⊢ iprop((dat0 (V1 m ρ) c).arrays ((dat0 (V1 m ρ) c).arrAt · 0) ∗ Pipeline.unscopedRest spec0 c (V1 m ρ c)) := by
  rw [← Pipeline.unscopedBufs_held (Ix := Unit) (Name := ℕ) (U := UR sig nD τ) (Lvl := ℕ) c (W1 m ρ c),
    Pipeline.unscopedBufs_split₀ cfgs 0 winFacts₀0.arr_unscoped c (V1 m ρ c)]
  exact sep_mono (entry_split (V1 m ρ) c) .rfl

/-- EXIT over all the buffers: the windows' arrays after the last point and the rest are all the buffers, held whole
    at the exit contents. -/
theorem exit_all (c : Dev nD) :
    iprop((dat0 (V1 m ρ) c).arrays ((dat0 (V1 m ρ) c).arrAt · cfg0.N) ∗ Pipeline.unscopedRest spec0 c (V1 m ρ c))
      ⊢ (StableHlo.held (c : Thread nD τ) (Pipeline.ucRefs τ sig) (W2 m ρ c) : sProp 𝕄) := by
  rw [← Pipeline.unscopedBufs_held (Ix := Unit) (Name := ℕ) (U := UR sig nD τ) (Lvl := ℕ) c (W2 m ρ c),
    Pipeline.unscopedBufs_split₀ cfgs 0 winFacts₀0.arr_unscoped c (V2 m ρ c), rest_exit]
  refine sep_mono ((exit_join (V1 m ρ) c).trans ?_) .rfl
  unfold Pipeline.arrBufs
  rw [bigSep_arrs]
  rw [show V2 m ρ c main_v4 = V1 m ρ c main_v4 from W2_of_ne m ρ c main_v4 (by decide),
    show V2 m ρ c main_v2 = V1 m ρ c main_v2 from W2_of_ne m ρ c main_v2 (by decide),
    show V2 m ρ c main_v3 = V1 m ρ c main_v3 from W2_of_ne m ρ c main_v3 (by decide),
    show V2 m ρ c main_v5 = (dat0 (V1 m ρ) c).arrAt 4 cfg0.N from W2_v5 m ρ c]

/-! ## The region as a segment -/

set_option backward.isDefEq.respectTransparency.types false in
/-- The region over the thread state: entered from every buffer at the entry contents, left at the exit contents.
    Its arrays are taken out of the buffers and put back; the generator register goes into the body's invariant and
    out; nothing is owed; the kernel has no semaphore of its own. -/
def reg0 : Pipeline.RegionSeg (pcfgs (F := F)) adm (pdats m ρ) () defs₀ 𝒱₀ L lv 0 where
  win := winFacts₀0
  block_pos := block_pos0
  stage_whole := stage_whole0
  K := PEmpty
  osem k := k.elim
  ho := Pipeline.OwnSemFacts.none _
  hbody c := (body_obligation (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit : (StableHlo.held (c : Thread nD τ) (Pipeline.ucRefs τ sig) (W1 m ρ c) : sProp 𝕄)
        ⊢ iprop((pdats m ρ 0 c).arrays ((pdats m ρ 0 c).arrAt · 0) ∗ Pipeline.unscopedRest spec0 c (V1 m ρ c)) := entry_all m ρ c
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin : iprop((pdats m ρ 0 c).arrays ((pdats m ρ 0 c).arrAt · cfg0.N) ∗ Pipeline.unscopedRest spec0 c (V1 m ρ c))
        ⊢ (StableHlo.held (c : Thread nD τ) (Pipeline.ucRefs τ sig) (W2 m ρ c) : sProp 𝕄) := exit_all m ρ c
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

/-! ## The program as segments, and the launch -/

/-- The program's three segments in order. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)) ]
/-- The program IS the run of the segments. -/
theorem main_run (c : Dev nD) : main (F := F) c = Pipeline.Seg.run (segs m ρ) := (main_chain c).trans (by chain_rfl)

set_option backward.isDefEq.respectTransparency.types false in
/-- THE RUN: from any memory with zero counters, every weakly fair execution of the program terminates, nothing
    faulting, and in every final state each buffer that outlives the region holds the last fold's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W3 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun c => by
      show iprop(StableHlo.held (c : Thread nD τ) (Pipeline.ucRefs τ sig) (W3 m ρ c) ∗ R c)
        ⊢ iprop(Tₙ m ρ c ∗ ∃ W, owes (c : Thread nD τ) (0 : CellTallies nD τ sig Unit) W)
      iintro ⟨Hh, Hp, Ho⟩
      isplitl [Hh Hp]
      · isplitl [Hh]; · iexact Hh
        iexact Hp
      iexact Ho⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c => h c)

/-! ## The argument ends as launched -/

/-- No host operation and no write-back writes the argument: through the fold its buffer holds the launch contents. -/
theorem W3_main_arg0 (c : Dev nD) : W3 m ρ c (Proc.devRef .tc main_arg0) = m ((c : Thread nD τ).loc main_arg0) :=
  calc W3 m ρ c (Proc.devRef .tc main_arg0)
    _ = W2 m ρ c (Proc.devRef .tc main_arg0) := StableHlo.after_of_forall_not_mem (b := Proc.devRef .tc main_arg0) _ _ (List.forall_iff_forall_mem.mp (by
          simp only [hostOps1, List.Forall, StableHlo.nullary_writes, StableHlo.unary_writes, StableHlo.binary_writes, Finset.mem_singleton]
          repeat' apply And.intro
          all_goals exact StableHlo.devRef_ne_of_ne (by decide)))
    _ = W1 m ρ c (Proc.devRef .tc main_arg0) := W2_of_ne m ρ c main_arg0 (by decide)
    _ = W0 m ρ c (Proc.devRef .tc main_arg0) := StableHlo.after_of_forall_not_mem (b := Proc.devRef .tc main_arg0) _ _ (List.forall_iff_forall_mem.mp (by
          simp only [hostOps0, List.Forall, StableHlo.nullary_writes, StableHlo.unary_writes, StableHlo.binary_writes, Finset.mem_singleton]
          repeat' apply And.intro
          all_goals exact StableHlo.devRef_ne_of_ne (by decide)))
    _ = m ((c : Thread nD τ).loc main_arg0) := rfl

/-- THE FRAME, at any float instance: the program runs to the end, nothing faulting, and its argument array ends as
    launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun r h c => (h c _ (mem_uc main_arg0 (by decide))).trans (W3_main_arg0 m ρ c)) (run_all m ρ)

end Cert.KernelIdeal.Hand

end
-- ==== Proof.Spec.lean ====
/-
  The function both programs compute, over the extended reals.

  For a batch `b`, every row `s` of `x[b]` is compared with every row `t` of `x[b]`: the squared distance
  `‖x_s‖² + ‖x_t‖² − 2·⟨x_s, x_t⟩` is clamped at zero from below, negated, divided by the temperature, and the row of these
  numbers (over `t`) goes through a softmax: subtract the row's maximum, exponentiate, divide by the row's sum of
  exponentials. `row` states that for ONE query row against a family of key rows, with the squared norms as separate
  arguments (the two programs compute them before they use them); `G` instantiates it at the rows of `x[b]`.
  The constants 2 and the temperature are kept as the words both programs carry; zero and the bottom element are the
  numbers themselves.
-/
import Idealize.ShloMosaic.PureOps.Ideal
import Idealize.ShloMosaic.Lib.ValueIdx

noncomputable section

open scoped BigOperators

namespace Cert.Spec

open Idealize.ShloMosaic Idealize.ShloMosaic.ValueIdx

/-- The temperature, as the word both programs divide by. -/
def temp : EReal := Ideal.ofBits .f32 0x4158B439#32
/-- The factor of the inner product, as the word both programs multiply by. -/
def two : EReal := Ideal.ofBits .f32 0x40000000#32

/-- The scaled negative clamped squared distance between a query row `q` (squared norm `sqq`) and key row `c` of `k`
    (squared norms `sqk`). -/
def logit (q : Fin 128 → EReal) (sqq : EReal) (k : Fin 4096 → Fin 128 → EReal) (sqk : Fin 4096 → EReal) (c : Fin 4096) : EReal :=
  Ideal.div (-(max ((sqq + sqk c) - two * ∑ d : Fin 128, q d * k c d) 0)) temp

/-- The softmax of the logits of one query row over all key rows, at key row `c`. -/
def row (q : Fin 128 → EReal) (sqq : EReal) (k : Fin 4096 → Fin 128 → EReal) (sqk : Fin 4096 → EReal) (c : Fin 4096) : EReal :=
  Ideal.div (Ideal.exp (logit q sqq k sqk c - Finset.univ.sup (logit q sqq k sqk)))
    (∑ c' : Fin 4096, Ideal.exp (logit q sqq k sqk c' - Finset.univ.sup (logit q sqq k sqk)))

/-- The squared norm of a row. -/
def sqn (v : Fin 128 → EReal) : EReal := ∑ d : Fin 128, v d * v d

/-- Row `s` of batch `b` of the input. -/
def xrow (x : (⟨3, ![4, 4096, 128]⟩ : Shape).Idx → EReal) (b : Fin 4) (s : Fin 4096) : Fin 128 → EReal :=
  fun d => x (ix3 b s d)

/-- The result at batch `b`, query row `s`, key row `t`. -/
def Gat (x : (⟨3, ![4, 4096, 128]⟩ : Shape).Idx → EReal) (b : Fin 4) (s t : Fin 4096) : EReal :=
  row (xrow x b s) (sqn (xrow x b s)) (fun t' => xrow x b t') (fun t' => sqn (xrow x b t')) t

/-- The whole result array: the trailing axis has one entry. -/
def G (x : (⟨3, ![4, 4096, 128]⟩ : Shape).Idx → EReal) : (⟨4, ![4, 4096, 4096, 1]⟩ : Shape).Idx → EReal :=
  fun i => Gat x (i 0) (i 1) (i 2)

theorem G_ix4 (x : (⟨3, ![4, 4096, 128]⟩ : Shape).Idx → EReal) (b : Fin 4) (s t : Fin 4096) (z : Fin 1) :
    G x (ix4 b s t z) = Gat x b s t := rfl

end Cert.Spec

end
-- ==== Proof.HostValues.lean ====
/-
  The host operations around the kernel region, read at an index over the extended reals.

  Before the region the program squares the input elementwise, sums each row's squares (from the initial value zero),
  lays the row sums out as a column and as a row, and narrows the input's format (the identity on extended reals);
  after the region it appends a unit axis to the region's result. Each statement below reads one of these arrays at an
  index in terms of the contents the operations started from.
-/
import proofs.«109996_j25864293057205_1_alg».proof.Proof.Gen.KernelIdeal.Launch
import Idealize.ShloMosaic.Lib.StableHlo.Run
import Idealize.ShloMosaic.Lib.Pipeline.Value
import Idealize.ShloMosaic.Lib.ValueIdx
import Idealize.ShloMosaic.Lib.ValueLayout
import Idealize.ShloMosaic.PureOps.Ideal.Laws
import proofs.«109996_j25864293057205_1_alg».proof.Proof.Spec

noncomputable section

open scoped BigOperators

namespace Cert.KernelHost

open Cert.KernelIdeal Cert.KernelIdeal.Gen Idealize.ShloMosaic Idealize.ShloMosaic.ValueIdx Idealize.ShloMosaic.StableHlo

/-! ## Buffers the host operations do not write -/

section Frame
variable {F : FTy → Type} [FloatOps F]

/-- No operation before the region writes the input. -/
theorem arg0_after0 (W : Valuation τ sig (Elt F)) :
    StableHlo.after (hostOps0 (F := F)) W (Proc.devRef .tc main_arg0) = W (Proc.devRef .tc main_arg0) := by
  dsimp only [hostOps0]; after_results

/-- No operation before the region writes the region's result. -/
theorem v5_after0 (W : Valuation τ sig (Elt F)) :
    StableHlo.after (hostOps0 (F := F)) W (Proc.devRef .tc main_v5) = W (Proc.devRef .tc main_v5) := by
  dsimp only [hostOps0]; after_results

/-- No operation before the region writes the program's result. -/
theorem v6_after0 (W : Valuation τ sig (Elt F)) :
    StableHlo.after (hostOps0 (F := F)) W (Proc.devRef .tc main_v6) = W (Proc.devRef .tc main_v6) := by
  dsimp only [hostOps0]; after_results

/-- The operation after the region does not write the input. -/
theorem arg0_after1 (W : Valuation τ sig (Elt F)) :
    StableHlo.after (hostOps1 (F := F)) W (Proc.devRef .tc main_arg0) = W (Proc.devRef .tc main_arg0) := by
  dsimp only [hostOps1]; after_results

end Frame

/-! ## The arrays the host operations write, as terms of the starting contents -/

/-- The row sums of the squares, as the host computes them from the input. -/
def sqTerm (x : (⟨S4x4096x128, .f32⟩ : BufTy).Contents (Elt Ideal)) : (⟨S4x4096, .f32⟩ : BufTy).Contents (Elt Ideal) :=
  Host.reduceAdd (F := Ideal) (mulf (F := Ideal) x x) (constant (F := Ideal) S_ .f32 0x00000000#32) reducesTo_S4x4096x128_S4x4096_d2 h_S_

theorem v4_eq (W : Valuation τ sig (Elt Ideal)) :
    @Eq ((⟨S4x4096x128, .bf16⟩ : BufTy).Contents (Elt Ideal))
      (StableHlo.after (hostOps0 (F := Ideal)) W (Proc.devRef .tc main_v4))
      (((truncf (F := Ideal) .bf16 · bitsLt_bf16_f32) : (⟨S4x4096x128, .f32⟩ : BufTy).Contents (Elt Ideal) → (⟨S4x4096x128, .bf16⟩ : BufTy).Contents (Elt Ideal))
        (W (Proc.devRef .tc main_arg0))) := by
  dsimp only [hostOps0]; after_results

theorem v2_eq (W : Valuation τ sig (Elt Ideal)) :
    @Eq ((⟨S4x4096x1, .f32⟩ : BufTy).Contents (Elt Ideal))
      (StableHlo.after (hostOps0 (F := Ideal)) W (Proc.devRef .tc main_v2))
      (broadcastInDim S4x4096x1 ![0, 1] bcast_S4x4096_S4x4096x1_0_1 (sqTerm (W (Proc.devRef .tc main_arg0)))) := by
  dsimp only [hostOps0]; after_results; rfl

theorem v3_eq (W : Valuation τ sig (Elt Ideal)) :
    @Eq ((⟨S4x1x4096, .f32⟩ : BufTy).Contents (Elt Ideal))
      (StableHlo.after (hostOps0 (F := Ideal)) W (Proc.devRef .tc main_v3))
      (transpose S4x1x4096 [0, 2, 1] (broadcastInDim S4x4096x1 ![0, 1] bcast_S4x4096_S4x4096x1_0_1 (sqTerm (W (Proc.devRef .tc main_arg0)))) transposes_S4x4096x1_S4x1x4096_0_2_1) := by
  dsimp only [hostOps0]; after_results; rfl

theorem v6_eq (W : Valuation τ sig (Elt Ideal)) :
    @Eq ((⟨S4x4096x4096x1, .f32⟩ : BufTy).Contents (Elt Ideal))
      (StableHlo.after (hostOps1 (F := Ideal)) W (Proc.devRef .tc main_v6))
      (broadcastInDim S4x4096x4096x1 ![0, 1, 2] bcast_S4x4096x4096_S4x4096x4096x1_0_1_2 (W (Proc.devRef .tc main_v5) : (⟨S4x4096x4096, .f32⟩ : BufTy).Contents (Elt Ideal))) := by
  dsimp only [hostOps1]; after_results

/-! ## The same arrays at an index -/

/-- The narrowed input is the input. -/
theorem v4_at (W : Valuation τ sig (Elt Ideal)) (b : Fin 4) (s : Fin 4096) (d : Fin 128) :
    (StableHlo.after (hostOps0 (F := Ideal)) W (Proc.devRef .tc main_v4) : S4x4096x128.Idx → EReal) (ix3 b s d)
      = (W (Proc.devRef .tc main_arg0) : S4x4096x128.Idx → EReal) (ix3 b s d) := by
  rw [v4_eq]; rfl

/-- The reduction over the last axis: the witness that names the inserted coordinate. -/
theorem reduces_d2 : S4x4096x128.Reduces [2] S4x4096 := by decide

/-- A row's sum of squares, from the initial value zero, is the squared norm of the row. -/
theorem sqTerm_apply (x : (⟨S4x4096x128, .f32⟩ : BufTy).Contents (Elt Ideal)) (b : Fin 4) (s : Fin 4096) :
    sqTerm x (ix2 b s) = Cert.Spec.sqn (Cert.Spec.xrow x b s) := by
  refine (Ideal.hostReduceAdd_single reducesTo_S4x4096x128_S4x4096_d2 reduces_d2 (mulf (F := Ideal) x x)
    (constant (F := Ideal) S_ .f32 0x00000000#32 (Shape.Idx.first h_S_)) (ix2 b s)).trans ?_
  rw [show constant (F := Ideal) S_ .f32 0x00000000#32 (Shape.Idx.first h_S_) = 0 from Ideal.ofBits_zero_f32, zero_add]
  show _ = ∑ d : Fin 128, x (ix3 b s d) * x (ix3 b s d)
  refine Finset.sum_congr rfl fun k _ => ?_
  have ek : reduces_d2.lift (ix2 b s) k = ix3 b s k :=
    funext fun a => Fin.ext (by match a with | ⟨0, _⟩ => rfl | ⟨1, _⟩ => rfl | ⟨2, _⟩ => rfl)
  rw [ek]; rfl

/-- The column of squared norms, at row `s` of batch `b`. -/
theorem v2_at (W : Valuation τ sig (Elt Ideal)) (b : Fin 4) (s : Fin 4096) :
    (StableHlo.after (hostOps0 (F := Ideal)) W (Proc.devRef .tc main_v2) : S4x4096x1.Idx → EReal) (ix3 b s (0 : Fin 1))
      = Cert.Spec.sqn (Cert.Spec.xrow (W (Proc.devRef .tc main_arg0)) b s) := by
  rw [v2_eq]
  refine (broadcastInDim_apply _ bcast_S4x4096_S4x4096x1_0_1 _ (ix3 b s (0 : Fin 1)) (ix2 b s) (fun a => match a with
    | ⟨0, _⟩ => by show b.val = if (4 : Nat) = 1 then 0 else b.val; rw [if_neg (by decide)]
    | ⟨1, _⟩ => by show s.val = if (4096 : Nat) = 1 then 0 else s.val; rw [if_neg (by decide)])).trans ?_
  exact sqTerm_apply _ b s

/-- The row of squared norms, at row `t` of batch `b`. -/
theorem v3_at (W : Valuation τ sig (Elt Ideal)) (b : Fin 4) (t : Fin 4096) :
    (StableHlo.after (hostOps0 (F := Ideal)) W (Proc.devRef .tc main_v3) : S4x1x4096.Idx → EReal) (ix3 b (0 : Fin 1) t)
      = Cert.Spec.sqn (Cert.Spec.xrow (W (Proc.devRef .tc main_arg0)) b t) := by
  rw [v3_eq]
  refine (transpose_ix3_021_apply _ transposes_S4x4096x1_S4x1x4096_0_2_1 b (0 : Fin 1) t).trans ?_
  refine (broadcastInDim_apply _ bcast_S4x4096_S4x4096x1_0_1 _ (ix3 b t (0 : Fin 1)) (ix2 b t) (fun a => match a with
    | ⟨0, _⟩ => by show b.val = if (4 : Nat) = 1 then 0 else b.val; rw [if_neg (by decide)]
    | ⟨1, _⟩ => by show t.val = if (4096 : Nat) = 1 then 0 else t.val; rw [if_neg (by decide)])).trans ?_
  exact sqTerm_apply _ b t

/-- The program's result, with its trailing unit axis, is the region's result. -/
theorem v6_at (W : Valuation τ sig (Elt Ideal)) (b : Fin 4) (s t : Fin 4096) (z : Fin 1) :
    (StableHlo.after (hostOps1 (F := Ideal)) W (Proc.devRef .tc main_v6) : S4x4096x4096x1.Idx → EReal) (ix4 b s t z)
      = (W (Proc.devRef .tc main_v5) : S4x4096x4096.Idx → EReal) (ix3 b s t) := by
  rw [v6_eq]
  exact broadcastInDim_apply _ bcast_S4x4096x4096_S4x4096x4096x1_0_1_2 _ (ix4 b s t z) (ix3 b s t) (fun a => match a with
    | ⟨0, _⟩ => by show b.val = if (4 : Nat) = 1 then 0 else b.val; rw [if_neg (by decide)]
    | ⟨1, _⟩ => by show s.val = if (4096 : Nat) = 1 then 0 else s.val; rw [if_neg (by decide)]
    | ⟨2, _⟩ => by show t.val = if (4096 : Nat) = 1 then 0 else t.val; rw [if_neg (by decide)])

end Cert.KernelHost

end
-- ==== Proof.LibColumn.lean ====
/-
  Small general lemmas: the keep-dimension column forms of a cast and a broadcast read at an index, and a lane
  maximum, a lane sum and the host's maximum-reduce over the columns of a rank-2 array read at a row.
-/
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.SL.Sem
open Idealize.ShloMosaic.Pipeline (Dat)
open Idealize.ShloMosaic.ValueIdx

namespace Cert.Lib

variable {α : Type}

/-- An `[a]` array cast to `[a, 1]` reads, at `(p, u)`, the operand at `p`, whatever the unit coordinate `u`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    omega)

/-- An `[a, 1]` array broadcast to `[a, b]` reads, at `(p, c)`, the operand's row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A reduced row index with the column put back is the pair. -/
theorem lift_row {n m : ℕ} (h : (⟨2, ![n, m]⟩ : Shape).Reduces [1] (⟨1, ![n]⟩ : Shape)) (r : Fin n)
    (k : Fin ((⟨2, ![n, m]⟩ : Shape).size 1)) : h.lift (ix1 r) k = ix2 r (⟨k.val, k.isLt⟩ : Fin m) := by
  funext c; apply Fin.ext
  fin_cases c <;> rfl

/-- A lane maximum of an `[n, m]` vector at row `r` is the fold of `max` over that row. -/
theorem multiReduction_max_row {n m : ℕ} (z : FVec Ideal ⟨2, ![n, m]⟩ .f32)
    (h : (⟨2, ![n, m]⟩ : Shape).Reduces [1] (⟨1, ![n]⟩ : Shape)) (hφ : FKind.Formats .f32)
    (hacc : (0xFF800000#32 : BitVec 32) = 0xFF800000#32) (r : Fin n) :
    multiReduction .maximumf [1] ⟨1, ![n]⟩ z 0xFF800000#32 h hφ hacc (ix1 r)
      = (Finset.univ : Finset (Fin m)).fold max (Ideal.ofBits .f32 0xFF800000#32) fun j => z (ix2 r j) := by
  refine (Ideal.multiReduction_maximumf_single z 0xFF800000#32 h hφ hacc (ix1 r)).trans ?_
  have hf : (z ∘ h.lift (ix1 r)) = fun k : Fin m => z (ix2 r k) := funext fun k => congrArg z (lift_row h r k)
  exact congrArg (fun f => Finset.fold max (Ideal.ofBits .f32 0xFF800000#32) f (Finset.univ : Finset (Fin m))) hf

/-- A lane sum of an `[n, m]` vector at row `r` is the sum over that row. -/
theorem multiReduction_add_row {n m : ℕ} (z : FVec Ideal ⟨2, ![n, m]⟩ .f32)
    (h : (⟨2, ![n, m]⟩ : Shape).Reduces [1] (⟨1, ![n]⟩ : Shape)) (hφ : FKind.Formats .f32)
    (hacc : (0x00000000#32 : BitVec 32) = 0x00000000#32) (r : Fin n) :
    multiReduction .add [1] ⟨1, ![n]⟩ z 0x00000000#32 h hφ hacc (ix1 r) = ∑ j : Fin m, z (ix2 r j) := by
  refine (Ideal.multiReduction_add_single z 0x00000000#32 h hφ hacc (ix1 r)).trans ?_
  exact Finset.sum_congr rfl fun k _ => congrArg z (lift_row h r k)

/-- The host's reduce with a maximum body over the columns, at row `r`: the fold of `max` over that row from the initial value. -/
theorem hostReduce_max_row {n m : ℕ} (x : FVec Ideal ⟨2, ![n, m]⟩ .f32) (init : (⟨0, ![]⟩ : Shape).Idx → EReal)
    (h' : (⟨2, ![n, m]⟩ : Shape).ReducesTo [1] (⟨1, ![n]⟩ : Shape)) (h : (⟨2, ![n, m]⟩ : Shape).Reduces [1] (⟨1, ![n]⟩ : Shape))
    (hu : 0 < (⟨0, ![]⟩ : Shape).numel) (r : Fin n) :
    Host.reduce FloatOps.maximumf x init h' hu (ix1 r) = (Finset.univ : Finset (Fin m)).fold max (init ix0) fun j => x (ix2 r j) := by
  rw [Host.reduce_eq_fold_single FloatOps.maximumf x init h' h hu]
  have hf : (x ∘ h.lift (ix1 r)) = fun k : Fin m => x (ix2 r k) := funext fun k => congrArg x (lift_row h r k)
  have hi : init (Shape.Idx.first hu) = init ix0 := congrArg init (eq_ix0 _)
  rw [hi]
  exact congrArg (fun f => Finset.fold max (init ix0) f (Finset.univ : Finset (Fin m))) hf

/-- The logarithm and the exponential of a vector at an index are those of the element. -/
theorem log_apply {s : Shape} {φ : FTy} (x : FVec Ideal s φ) (i : s.Idx) : log x i = Ideal.log (x i) := rfl
theorem exp_apply {s : Shape} {φ : FTy} (x : FVec Ideal s φ) (i : s.Idx) : exp x i = Ideal.exp (x i) := rfl

end Cert.Lib

end
-- ==== Proof.PayloadRow.lean ====
/-
  The kernel's result block at an entry: for a block of 256 query rows against 4096 key rows, entry `(r, c)` of the
  stored block is the softmax over the key rows of the scaled negative clamped squared distances of query row `r`,
  taken at key row `c` — the specification's `row`, with the squared norms read from the column and the row the
  kernel is handed. The block is cut in two: the logits (an inner product, two spread norms, the clamp, the negation
  as `0 − ·`, the quotient by the temperature) and the softmax over the lanes (the row maximum folded from the bottom
  element, the exponentials, the row sum, the quotient).
-/
import proofs.«109996_j25864293057205_1_alg».proof.Proof.Gen.KernelIdeal.Skeleton
import proofs.«109996_j25864293057205_1_alg».proof.Proof.Spec
import proofs.«109996_j25864293057205_1_alg».proof.Proof.LibColumn
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

open scoped BigOperators
open Idealize.ShloMosaic Idealize.ShloMosaic.TcCoe Idealize.SL.Sem
open Idealize.ShloMosaic.ValueIdx
open Cert.KernelIdeal Cert.KernelIdeal.Gen

namespace Cert.KernelValue

/-- The block of logits. -/
def lgt (a : FVec Ideal S256x128 .bf16) (b : FVec Ideal S4096x128 .bf16) (u : FVec Ideal S256x1 .f32)
    (w : FVec Ideal S1x4096 .f32) : FVec Ideal S256x4096 .f32 :=
  divf (subf (broadcast S256x4096 (Scalar.ofBits (F := Ideal) .f32 0x00000000#32))
      (maximumf (subf (addf (broadcastTo S256x4096 u broadcasts_S256x1_S256x4096) (broadcastTo S256x4096 w broadcasts_S1x4096_S256x4096))
          (mulf (broadcast S256x4096 (Scalar.ofBits (F := Ideal) .f32 0x40000000#32))
            (matmul dot_S256x128_S4096x128_S256x4096_1_1_0_0_n_n none a b (constant (F := Ideal) S256x4096 .f32 0x00000000#32))))
        (broadcast S256x4096 (Scalar.ofBits (F := Ideal) .f32 0x00000000#32))))
    (broadcast S256x4096 (Scalar.ofBits (F := Ideal) .f32 0x4158B439#32))

/-- The row maxima, kept as a column and spread over the lanes. -/
def rmax (z : FVec Ideal S256x4096 .f32) : FVec Ideal S256x4096 .f32 :=
  broadcastTo S256x4096 (shapeCast S256x1 (maximumf (broadcast S256 (Scalar.ofBits (F := Ideal) .f32 0xFF800000#32))
    (multiReduction (F := Ideal) .maximumf [1] S256 z 0xFF800000#32 reduces_S256x4096_S256 (.inl rfl) rfl)) shapeCasts_S256_S256x1) broadcasts_S256x1_S256x4096

/-- The row sums, kept as a column and spread over the lanes. -/
def rsum (e : FVec Ideal S256x4096 .f32) : FVec Ideal S256x4096 .f32 :=
  broadcastTo S256x4096 (shapeCast S256x1 (multiReduction (F := Ideal) .add [1] S256 e 0x00000000#32 reduces_S256x4096_S256 (.inl rfl) rfl) shapeCasts_S256_S256x1) broadcasts_S256x1_S256x4096

/-- The softmax over the lanes, as the kernel spells it. -/
def smx (z : FVec Ideal S256x4096 .f32) : FVec Ideal S256x4096 .f32 :=
  divf (exp (subf z (rmax z))) (rsum (exp (subf z (rmax z))))

theorem pay_eq (x0 : Vec Ideal S1x256x128 .bf16) (x1 : Vec Ideal S1x4096x128 .bf16) (x2 : Vec Ideal S1x256x1 .f32) (x3 : Vec Ideal S1x1x4096 .f32) :
    k0_pay1 (F := Ideal) x0 x1 x2 x3 = shapeCast S1x256x4096 (smx (lgt (shapeCast S256x128 x0 shapeCasts_S1x256x128_S256x128)
      (shapeCast S4096x128 x1 shapeCasts_S1x4096x128_S4096x128) (shapeCast S256x1 x2 shapeCasts_S1x256x1_S256x1)
      (shapeCast S1x4096 x3 shapeCasts_S1x1x4096_S1x4096))) shapeCasts_S256x4096_S1x256x4096 := rfl

/-! ## The matrix product at an entry -/

theorem lhs_dots_0 (i : S256x4096.Idx) (q : dot_S256x128_S4096x128_S256x4096_1_1_0_0_n_n.contr.Idx) :
    (dot_S256x128_S4096x128_S256x4096_1_1_0_0_n_n.lhsIdx i q 0).val = (i 0).val := by
  unfold DotDims.lhsIdx
  rw [dif_neg (show ¬(0 : Fin S256x128.rank) ∈ dot_S256x128_S4096x128_S256x4096_1_1_0_0_n_n.lhsBatch by decide),
    dif_pos (show (0 : Fin S256x128.rank) ∈ dot_S256x128_S4096x128_S256x4096_1_1_0_0_n_n.lhsNonContracting by decide)]
  rfl
theorem lhs_dots_1 (i : S256x4096.Idx) (q : dot_S256x128_S4096x128_S256x4096_1_1_0_0_n_n.contr.Idx) :
    (dot_S256x128_S4096x128_S256x4096_1_1_0_0_n_n.lhsIdx i q 1).val = (q ⟨0, by decide⟩).val :=
  dot_S256x128_S4096x128_S256x4096_1_1_0_0_n_n.lhsIdx_val_of_single rfl i q
theorem rhs_dots_0 (i : S256x4096.Idx) (q : dot_S256x128_S4096x128_S256x4096_1_1_0_0_n_n.contr.Idx) :
    (dot_S256x128_S4096x128_S256x4096_1_1_0_0_n_n.rhsIdx i q 0).val = (i 1).val := by
  unfold DotDims.rhsIdx
  rw [dif_neg (show ¬(0 : Fin S4096x128.rank) ∈ dot_S256x128_S4096x128_S256x4096_1_1_0_0_n_n.rhsBatch by decide),
    dif_pos (show (0 : Fin S4096x128.rank) ∈ dot_S256x128_S4096x128_S256x4096_1_1_0_0_n_n.rhsNonContracting by decide)]
  rfl
theorem rhs_dots_1 (i : S256x4096.Idx) (q : dot_S256x128_S4096x128_S256x4096_1_1_0_0_n_n.contr.Idx) :
    (dot_S256x128_S4096x128_S256x4096_1_1_0_0_n_n.rhsIdx i q 1).val = (q ⟨0, by decide⟩).val :=
  dot_S256x128_S4096x128_S256x4096_1_1_0_0_n_n.rhsIdx_val_of_single rfl i q

/-- The matrix product into a zero accumulator, at entry `(r, c)`: the inner product of row `r` of the left block with
    row `c` of the right block. -/
theorem dots_at (a : FVec Ideal S256x128 .bf16) (b : FVec Ideal S4096x128 .bf16) (r : Fin 256) (c : Fin 4096) :
    matmul dot_S256x128_S4096x128_S256x4096_1_1_0_0_n_n none a b (constant (F := Ideal) S256x4096 .f32 0x00000000#32) (ix2 r c)
      = ∑ d : Fin 128, a (ix2 r d) * b (ix2 c d) := by
  refine (Ideal.matmul_constant_zero_apply dot_S256x128_S4096x128_S256x4096_1_1_0_0_n_n none a b (ix2 r c)).trans ?_
  rw [← Equiv.sum_comp (ValueIdx.contrEquiv1 dot_S256x128_S4096x128_S256x4096_1_1_0_0_n_n 128 rfl rfl).symm]
  refine Finset.sum_congr rfl fun k _ => ?_
  have hk := ValueIdx.contrEquiv1_symm_val dot_S256x128_S4096x128_S256x4096_1_1_0_0_n_n 128 rfl rfl k
  have el : dot_S256x128_S4096x128_S256x4096_1_1_0_0_n_n.lhsIdx (ix2 r c)
      ((ValueIdx.contrEquiv1 dot_S256x128_S4096x128_S256x4096_1_1_0_0_n_n 128 rfl rfl).symm k) = ix2 r k := funext fun ax => Fin.ext (by
    match ax with
    | ⟨0, _⟩ => exact lhs_dots_0 _ _
    | ⟨1, _⟩ => exact (lhs_dots_1 _ _).trans hk)
  have er : dot_S256x128_S4096x128_S256x4096_1_1_0_0_n_n.rhsIdx (ix2 r c)
      ((ValueIdx.contrEquiv1 dot_S256x128_S4096x128_S256x4096_1_1_0_0_n_n 128 rfl rfl).symm k) = ix2 c k := funext fun ax => Fin.ext (by
    match ax with
    | ⟨0, _⟩ => exact rhs_dots_0 _ _
    | ⟨1, _⟩ => exact (rhs_dots_1 _ _).trans hk)
  rw [el, er]

/-! ## The logits at an entry -/

/-- The word of negative infinity is the bottom element. -/
theorem bot_word : Ideal.ofBits .f32 0xFF800000#32 = (⊥ : EReal) := by simp [Ideal.ofBits, Ideal.ieee]

theorem lgt_at (a : FVec Ideal S256x128 .bf16) (b : FVec Ideal S4096x128 .bf16) (u : FVec Ideal S256x1 .f32)
    (w : FVec Ideal S1x4096 .f32) (r : Fin 256) (c : Fin 4096) :
    lgt a b u w (ix2 r c) = Cert.Spec.logit (fun d => a (ix2 r d)) (u (ix2 r (0 : Fin 1))) (fun t d => b (ix2 t d))
      (fun t => w (ix2 (0 : Fin 1) t)) c := by
  unfold lgt Cert.Spec.logit Cert.Spec.two Cert.Spec.temp
  rw [divf_apply, subf_apply, maximumf_apply, subf_apply, addf_apply, mulf_apply, dots_at,
    Cert.Lib.broadcastTo_a1_ab_apply, broadcastTo_1b_ab_apply]
  simp only [broadcast_apply]
  show Ideal.div (Ideal.ofBits .f32 0x00000000#32 - max _ (Ideal.ofBits .f32 0x00000000#32)) _ = _
  rw [Ideal.ofBits_zero_f32, zero_sub]
  rfl

/-! ## The softmax over the lanes at an entry -/

/-- The row maximum at an entry of its row: the supremum of the row. -/
theorem rmax_at (z : FVec Ideal S256x4096 .f32) (r : Fin 256) (c : Fin 4096) :
    rmax z (ix2 r c) = Finset.univ.sup fun c' : Fin 4096 => z (ix2 r c') := by
  unfold rmax
  rw [Cert.Lib.broadcastTo_a1_ab_apply, Cert.Lib.shapeCast_a_a1_apply, maximumf_apply, broadcast_apply]
  refine (congrArg (max _) (Cert.Lib.multiReduction_max_row z reduces_S256x4096_S256 (.inl rfl) rfl r)).trans ?_
  show max (Ideal.ofBits .f32 0xFF800000#32) (Finset.fold max (Ideal.ofBits .f32 0xFF800000#32) _ _) = _
  rw [bot_word, max_bot_left]
  rfl

/-- The row sum at an entry of its row. -/
theorem rsum_at (e : FVec Ideal S256x4096 .f32) (r : Fin 256) (c : Fin 4096) :
    rsum e (ix2 r c) = ∑ c' : Fin 4096, e (ix2 r c') := by
  unfold rsum
  rw [Cert.Lib.broadcastTo_a1_ab_apply, Cert.Lib.shapeCast_a_a1_apply]
  exact Cert.Lib.multiReduction_add_row e reduces_S256x4096_S256 (.inl rfl) rfl r

theorem smx_at (z : FVec Ideal S256x4096 .f32) (r : Fin 256) (c : Fin 4096) :
    smx z (ix2 r c) = Ideal.div (Ideal.exp (z (ix2 r c) - Finset.univ.sup fun c' : Fin 4096 => z (ix2 r c')))
      (∑ c' : Fin 4096, Ideal.exp (z (ix2 r c') - Finset.univ.sup fun c'' : Fin 4096 => z (ix2 r c''))) := by
  unfold smx
  rw [divf_apply, rsum_at]
  simp only [Cert.Lib.exp_apply, subf_apply, rmax_at]

/-! ## The payload at an entry -/

theorem pay_row (x0 : Vec Ideal S1x256x128 .bf16) (x1 : Vec Ideal S1x4096x128 .bf16) (x2 : Vec Ideal S1x256x1 .f32)
    (x3 : Vec Ideal S1x1x4096 .f32) (r : Fin 256) (c : Fin 4096) :
    k0_pay1 (F := Ideal) x0 x1 x2 x3 (ix3 (0 : Fin 1) r c)
      = Cert.Spec.row (fun d => x0 (ix3 (0 : Fin 1) r d)) (x2 (ix3 (0 : Fin 1) r (0 : Fin 1)))
          (fun t d => x1 (ix3 (0 : Fin 1) t d)) (fun t => x3 (ix3 (0 : Fin 1) (0 : Fin 1) t)) c := by
  rw [pay_eq, shapeCast_ab_1ab_apply, smx_at]
  simp only [lgt_at, shapeCast_1ab_ab_apply]
  rfl

end Cert.KernelValue

end
-- ==== Proof.KiFinal.lean ====
/-
  From the blocks to the array.

  The region runs over a 4 × 16 grid: point `t` is batch `t / 16` and query tile `t % 16`. At that point the body reads
  the tile's 256 query rows and all 4096 key rows of the batch, with their squared norms, and writes the 256 × 4096
  block of softmax rows. When the arrays the region finds hold the input's rows and their squared norms, the value of
  the body at entry `(r, cc)` of the block is the specification's result for query row `256 (t % 16) + r` against key
  row `cc` of the batch — so each point writes back its block of ONE array, the specification's. The 64 blocks tile
  that array (the index `(b, s, u)` lies in the block of point `16 b + s / 256`), hence after the region the array is
  the specification's.
-/
import proofs.«109996_j25864293057205_1_alg».proof.Proof.KiData
import proofs.«109996_j25864293057205_1_alg».proof.Proof.Spec
import proofs.«109996_j25864293057205_1_alg».proof.Proof.PayloadRow
import Idealize.ShloMosaic.Lib.Pipeline.Value
import Idealize.ShloMosaic.Lib.ValueIdx

set_option maxRecDepth 16384

noncomputable section

open scoped BigOperators

namespace Cert.KernelValue

section Final

open Cert.KernelIdeal Cert.KernelIdeal.Gen Cert.KernelIdeal.Hand
open Idealize.ShloMosaic Idealize.ShloMosaic.TcCoe Idealize.SL.Sem Idealize.ShloMosaic.ValueIdx
open Idealize.ShloMosaic.Pipeline (Dat)

theorem origin3 : (![0, 0, 0] : Fin 3 → Nat) = fun _ => 0 := funext fun a => by fin_cases a <;> rfl

/-- The printed index maps, decided over the 64 grid points: point `t` is batch `t / 16` and query tile `t % 16`;
    the query-side windows and the output sit at block (batch, tile, 0), the key-side windows at block (batch, 0, 0). -/
theorem index_facts : ∀ t : Fin cfg0.N,
    win0_4.index t (0 : Fin 3) = t.val / 16 ∧ win0_4.index t (1 : Fin 3) = t.val % 16 ∧ win0_4.index t (2 : Fin 3) = 0
    ∧ win0_0.index t (0 : Fin 3) = t.val / 16 ∧ win0_0.index t (1 : Fin 3) = t.val % 16 ∧ win0_0.index t (2 : Fin 3) = 0
    ∧ win0_1.index t (0 : Fin 3) = t.val / 16 ∧ win0_1.index t (1 : Fin 3) = 0 ∧ win0_1.index t (2 : Fin 3) = 0
    ∧ win0_2.index t (0 : Fin 3) = t.val / 16 ∧ win0_2.index t (1 : Fin 3) = t.val % 16 ∧ win0_2.index t (2 : Fin 3) = 0
    ∧ win0_3.index t (0 : Fin 3) = t.val / 16 ∧ win0_3.index t (1 : Fin 3) = 0 ∧ win0_3.index t (2 : Fin 3) = 0 :=
  (by decide +kernel : ∀ t : Fin grid0.N, _)

/-- An index of the result array is in point `t`'s block iff each coordinate is in the block's range on its axis. -/
theorem mem_block (t : Fin cfg0.N) (i : S4x4096x4096.Idx) :
    i ∈ ((cfg0.win 4).blk t).view.set ↔ ∀ a : Fin 3, win0_4.index t a * S1x256x4096.size a ≤ (i a).val ∧ (i a).val < win0_4.index t a * S1x256x4096.size a + S1x256x4096.size a := by
  show i ∈ ((View.whole main_v5).slice (win0_4.rect t)).set ↔ _
  rw [View.set_slice_whole, Rect.mem_set_unit]
  exact Iff.rfl

/-- Every index of the result array is in the block of the point of its batch and of the tile of its query row. -/
theorem covered (i : S4x4096x4096.Idx) :
    ∃ t : Fin cfg0.N, (cfg0.win 4).flush t = true ∧ i ∈ ((cfg0.win 4).blk t).view.set := by
  have hi0 : (i 0).val < 4 := (i 0).isLt
  have hi1 : (i 1).val < 4096 := (i 1).isLt
  have hi2 : (i 2).val < 4096 := (i 2).isLt
  refine ⟨⟨16 * (i 0).val + (i 1).val / 256, by show _ < 64; omega⟩, flush0_4 _, ?_⟩
  rw [mem_block]
  obtain ⟨e0, e1, e2, -⟩ := index_facts ⟨16 * (i 0).val + (i 1).val / 256, by show _ < 64; omega⟩
  intro a
  match a with
  | ⟨0, _⟩ => show win0_4.index _ (0 : Fin 3) * 1 ≤ (i 0).val ∧ (i 0).val < win0_4.index _ (0 : Fin 3) * 1 + 1; rw [e0]; show (16 * (i 0).val + (i 1).val / 256) / 16 * 1 ≤ _ ∧ _ < (16 * (i 0).val + (i 1).val / 256) / 16 * 1 + 1; omega
  | ⟨1, _⟩ => show win0_4.index _ (1 : Fin 3) * 256 ≤ (i 1).val ∧ (i 1).val < win0_4.index _ (1 : Fin 3) * 256 + 256; rw [e1]; show (16 * (i 0).val + (i 1).val / 256) % 16 * 256 ≤ _ ∧ _ < (16 * (i 0).val + (i 1).val / 256) % 16 * 256 + 256; omega
  | ⟨2, _⟩ => show win0_4.index _ (2 : Fin 3) * 4096 ≤ (i 2).val ∧ (i 2).val < win0_4.index _ (2 : Fin 3) * 4096 + 4096; rw [e2]; omega

variable (V : (c : Dev nD) → (b : Ref sig .tc) → Buf (Elt Ideal) ((c : Thread nD τ).loc b))

/-- The query-row block at point `t` is rows `256 (t % 16) …` of batch `t / 16` of the rounded input. -/
theorem iblk0_apply (c : Dev nD) (t : Fin cfg0.N) (y : S1x256x128.Idx) (k : S4x4096x128.Idx)
    (hk0 : (k 0).val = t.val / 16) (hk1 : (k 1).val = 256 * (t.val % 16) + (y 1).val) (hk2 : (k 2).val = (y 2).val) :
    (iblk V c 0 t : Vec Ideal S1x256x128 .bf16) y = (V c main_v4 : S4x4096x128.Idx → EReal) k := by
  obtain ⟨-, -, -, e0, e1, e2, -⟩ := index_facts t
  have hy0 : (y 0).val < 1 := (y 0).isLt
  unfold iblk
  rw [View.read_apply]
  show V c main_v4 _ = V c main_v4 _
  congr 1
  funext a
  apply Fin.ext
  match a with
  | ⟨0, _⟩ => show win0_0.index t (0 : Fin 3) * 1 + 1 * (y 0).val = (k 0).val; rw [e0, hk0]; omega
  | ⟨1, _⟩ => show win0_0.index t (1 : Fin 3) * 256 + 1 * (y 1).val = (k 1).val; rw [e1, hk1]; omega
  | ⟨2, _⟩ => show win0_0.index t (2 : Fin 3) * 128 + 1 * (y 2).val = (k 2).val; rw [e2, hk2]; omega

/-- The key-row block at point `t` is all rows of batch `t / 16` of the rounded input. -/
theorem iblk1_apply (c : Dev nD) (t : Fin cfg0.N) (y : S1x4096x128.Idx) (k : S4x4096x128.Idx)
    (hk0 : (k 0).val = t.val / 16) (hk1 : (k 1).val = (y 1).val) (hk2 : (k 2).val = (y 2).val) :
    (iblk V c 1 t : Vec Ideal S1x4096x128 .bf16) y = (V c main_v4 : S4x4096x128.Idx → EReal) k := by
  obtain ⟨-, -, -, -, -, -, e0, e1, e2, -⟩ := index_facts t
  have hy0 : (y 0).val < 1 := (y 0).isLt
  unfold iblk
  rw [View.read_apply]
  show V c main_v4 _ = V c main_v4 _
  congr 1
  funext a
  apply Fin.ext
  match a with
  | ⟨0, _⟩ => show win0_1.index t (0 : Fin 3) * 1 + 1 * (y 0).val = (k 0).val; rw [e0, hk0]; omega
  | ⟨1, _⟩ => show win0_1.index t (1 : Fin 3) * 4096 + 1 * (y 1).val = (k 1).val; rw [e1, hk1]; omega
  | ⟨2, _⟩ => show win0_1.index t (2 : Fin 3) * 128 + 1 * (y 2).val = (k 2).val; rw [e2, hk2]; omega

/-- The block of the query rows' squared norms at point `t`. -/
theorem iblk2_apply (c : Dev nD) (t : Fin cfg0.N) (y : S1x256x1.Idx) (k : S4x4096x1.Idx)
    (hk0 : (k 0).val = t.val / 16) (hk1 : (k 1).val = 256 * (t.val % 16) + (y 1).val) :
    (iblk V c 2 t : Vec Ideal S1x256x1 .f32) y = (V c main_v2 : S4x4096x1.Idx → EReal) k := by
  obtain ⟨-, -, -, -, -, -, -, -, -, e0, e1, e2, -⟩ := index_facts t
  have hy0 : (y 0).val < 1 := (y 0).isLt
  have hy2 : (y 2).val < 1 := (y 2).isLt
  have hk2 : (k 2).val < 1 := (k 2).isLt
  unfold iblk
  rw [View.read_apply]
  show V c main_v2 _ = V c main_v2 _
  congr 1
  funext a
  apply Fin.ext
  match a with
  | ⟨0, _⟩ => show win0_2.index t (0 : Fin 3) * 1 + 1 * (y 0).val = (k 0).val; rw [e0, hk0]; omega
  | ⟨1, _⟩ => show win0_2.index t (1 : Fin 3) * 256 + 1 * (y 1).val = (k 1).val; rw [e1, hk1]; omega
  | ⟨2, _⟩ => show win0_2.index t (2 : Fin 3) * 1 + 1 * (y 2).val = (k 2).val; rw [e2]; omega

/-- The block of the key rows' squared norms at point `t`. -/
theorem iblk3_apply (c : Dev nD) (t : Fin cfg0.N) (y : S1x1x4096.Idx) (k : S4x1x4096.Idx)
    (hk0 : (k 0).val = t.val / 16) (hk2 : (k 2).val = (y 2).val) :
    (iblk V c 3 t : Vec Ideal S1x1x4096 .f32) y = (V c main_v3 : S4x1x4096.Idx → EReal) k := by
  obtain ⟨-, -, -, -, -, -, -, -, -, -, -, -, e0, e1, e2⟩ := index_facts t
  have hy0 : (y 0).val < 1 := (y 0).isLt
  have hy1 : (y 1).val < 1 := (y 1).isLt
  have hk1 : (k 1).val < 1 := (k 1).isLt
  unfold iblk
  rw [View.read_apply]
  show V c main_v3 _ = V c main_v3 _
  congr 1
  funext a
  apply Fin.ext
  match a with
  | ⟨0, _⟩ => show win0_3.index t (0 : Fin 3) * 1 + 1 * (y 0).val = (k 0).val; rw [e0, hk0]; omega
  | ⟨1, _⟩ => show win0_3.index t (1 : Fin 3) * 1 + 1 * (y 1).val = (k 1).val; rw [e1]; omega
  | ⟨2, _⟩ => show win0_3.index t (2 : Fin 3) * 4096 + 1 * (y 2).val = (k 2).val; rw [e2, hk2]; omega

/-- The body's value of the four blocks of point `t`, at row `r` and column `cc` of the block, is the result at the
    index `k` of the array that the block's entry `(r, cc)` sits at. -/
theorem block_at (c : Dev nD) (x : S4x4096x128.Idx → EReal)
    (h4 : ∀ (b : Fin 4) (s : Fin 4096) (d : Fin 128), (V c main_v4 : S4x4096x128.Idx → EReal) (ix3 b s d) = x (ix3 b s d))
    (h2 : ∀ (b : Fin 4) (s : Fin 4096), (V c main_v2 : S4x4096x1.Idx → EReal) (ix3 b s (0 : Fin 1)) = Cert.Spec.sqn (Cert.Spec.xrow x b s))
    (h3 : ∀ (b : Fin 4) (t : Fin 4096), (V c main_v3 : S4x1x4096.Idx → EReal) (ix3 b (0 : Fin 1) t) = Cert.Spec.sqn (Cert.Spec.xrow x b t))
    (t : Fin cfg0.N) (r : Fin 256) (cc : Fin 4096) (b : Fin 4) (s u : Fin 4096)
    (hb : b.val = t.val / 16) (hs : s.val = 256 * (t.val % 16) + r.val) (hu : u.val = cc.val) :
    k0_pay1 (F := Ideal) (iblk V c 0 t) (iblk V c 1 t) (iblk V c 2 t) (iblk V c 3 t) (ix3 (0 : Fin 1) r cc)
      = Cert.Spec.Gat x b s u := by
  obtain rfl : u = cc := Fin.ext hu
  refine (pay_row _ _ _ _ r u).trans ?_
  unfold Cert.Spec.Gat
  have q : (fun d : Fin 128 => (iblk V c 0 t : Vec Ideal S1x256x128 .bf16) (ix3 (0 : Fin 1) r d)) = Cert.Spec.xrow x b s :=
    funext fun d => (iblk0_apply V c t (ix3 (0 : Fin 1) r d) (ix3 b s d) hb hs rfl).trans (h4 b s d)
  have qn : (iblk V c 2 t : Vec Ideal S1x256x1 .f32) (ix3 (0 : Fin 1) r (0 : Fin 1)) = Cert.Spec.sqn (Cert.Spec.xrow x b s) :=
    (iblk2_apply V c t (ix3 (0 : Fin 1) r (0 : Fin 1)) (ix3 b s (0 : Fin 1)) hb hs).trans (h2 b s)
  have k : (fun (t' : Fin 4096) (d : Fin 128) => (iblk V c 1 t : Vec Ideal S1x4096x128 .bf16) (ix3 (0 : Fin 1) t' d))
      = fun t' => Cert.Spec.xrow x b t' :=
    funext fun t' => funext fun d => (iblk1_apply V c t (ix3 (0 : Fin 1) t' d) (ix3 b t' d) hb rfl rfl).trans (h4 b t' d)
  have kn : (fun t' : Fin 4096 => (iblk V c 3 t : Vec Ideal S1x1x4096 .f32) (ix3 (0 : Fin 1) (0 : Fin 1) t'))
      = fun t' => Cert.Spec.sqn (Cert.Spec.xrow x b t') :=
    funext fun t' => (iblk3_apply V c t (ix3 (0 : Fin 1) (0 : Fin 1) t') (ix3 b (0 : Fin 1) t') hb rfl).trans (h3 b t')
  rw [q, qn, k, kn]

/-- What point `t` writes back is its block of the specification's array. -/
theorem flushed_eq (c : Dev nD) (x : S4x4096x128.Idx → EReal)
    (h4 : ∀ (b : Fin 4) (s : Fin 4096) (d : Fin 128), (V c main_v4 : S4x4096x128.Idx → EReal) (ix3 b s d) = x (ix3 b s d))
    (h2 : ∀ (b : Fin 4) (s : Fin 4096), (V c main_v2 : S4x4096x1.Idx → EReal) (ix3 b s (0 : Fin 1)) = Cert.Spec.sqn (Cert.Spec.xrow x b s))
    (h3 : ∀ (b : Fin 4) (t : Fin 4096), (V c main_v3 : S4x1x4096.Idx → EReal) (ix3 b (0 : Fin 1) t) = Cert.Spec.sqn (Cert.Spec.xrow x b t))
    (t : Fin cfg0.N) :
    (dat0 (F := Ideal) V c).flushed 4 t
      = ((cfg0.win 4).blk t).view.read (Elt Ideal) (fun i : S4x4096x4096.Idx => Cert.Spec.Gat x (i 0) (i 1) (i 2)) := by
  show (cfg0.win 4).cut (grid0.coords t) ((dat0 (F := Ideal) V c).after 4 t) = _
  rw [after_4]
  unfold out4
  rw [View.canon_unit_zero origin3]
  simp only [View.ld_unit_zero (S := S1x256x128) origin3, View.ld_unit_zero (S := S1x4096x128) origin3,
    View.ld_unit_zero (S := S1x256x1) origin3, View.ld_unit_zero (S := S1x1x4096) origin3]
  obtain ⟨e0, e1, e2, -⟩ := index_facts t
  funext y
  obtain ⟨z, r, cc, rfl⟩ : ∃ (z : Fin 1) (r : Fin 256) (cc : Fin 4096), y = ix3 z r cc := ⟨_, _, _, eq_ix3 y⟩
  obtain rfl : z = 0 := Subsingleton.elim _ _
  refine block_at V c x h4 h2 h3 t r cc _ _ _ ?_ ?_ ?_
  · show win0_4.index t (0 : Fin 3) * 1 + 1 * 0 = _; rw [e0]; omega
  · show win0_4.index t (1 : Fin 3) * 256 + 1 * r.val = _; rw [e1]; omega
  · show win0_4.index t (2 : Fin 3) * 4096 + 1 * cc.val = _; rw [e2]; omega

/-- The result array after the region is the specification's array. -/
theorem final4 (c : Dev nD) (x : S4x4096x128.Idx → EReal)
    (h4 : ∀ (b : Fin 4) (s : Fin 4096) (d : Fin 128), (V c main_v4 : S4x4096x128.Idx → EReal) (ix3 b s d) = x (ix3 b s d))
    (h2 : ∀ (b : Fin 4) (s : Fin 4096), (V c main_v2 : S4x4096x1.Idx → EReal) (ix3 b s (0 : Fin 1)) = Cert.Spec.sqn (Cert.Spec.xrow x b s))
    (h3 : ∀ (b : Fin 4) (t : Fin 4096), (V c main_v3 : S4x1x4096.Idx → EReal) (ix3 b (0 : Fin 1) t) = Cert.Spec.sqn (Cert.Spec.xrow x b t)) :
    ((dat0 (F := Ideal) V c).arrAt 4 cfg0.N : S4x4096x4096.Idx → EReal) = fun i => Cert.Spec.Gat x (i 0) (i 1) (i 2) :=
  (dat0 (F := Ideal) V c).arrAt_eq_of_cover 4 (fun i : S4x4096x4096.Idx => Cert.Spec.Gat x (i 0) (i 1) (i 2))
    (fun t _ => flushed_eq V c x h4 h2 h3 t) covered

end Final

end Cert.KernelValue

end
-- ==== Proof.KiValue.lean ====
/-
  The program's result buffer is the specification's function of the argument, over the extended reals.

  The region's result array is, index by index, the softmax row of the specification as soon as the three arrays the
  region reads are the input, its squared norms as a column, and its squared norms as a row. The host operations
  before the region make them exactly that; the one host operation after the region appends a unit axis. Chained, the
  program's result at `(b, s, t, 0)` is the specification's value at batch `b`, query row `s`, key row `t`.
-/
import proofs.«109996_j25864293057205_1_alg».proof.Proof.KiVals
import proofs.«109996_j25864293057205_1_alg».proof.Proof.HostValues
import proofs.«109996_j25864293057205_1_alg».proof.Proof.Spec
import proofs.«109996_j25864293057205_1_alg».proof.Proof.KiFinal

noncomputable section

namespace Cert.KernelValue

open Cert.KernelIdeal Cert.KernelIdeal.Gen Cert.KernelIdeal.Hand
open Idealize.ShloMosaic Idealize.ShloMosaic.TcCoe Idealize.ShloMosaic.ValueIdx Idealize.ShloMosaic.StableHlo Idealize.SL.Sem

/-- The region's result array as the specification's function, given the three arrays the region reads: the statement
    the chain below takes from the region's value. -/
def RegionValue : Prop :=
  ∀ (V : (c : Dev nD) → (b : Ref sig .tc) → Buf (Elt Ideal) ((c : Thread nD τ).loc b)) (c : Dev nD) (x : S4x4096x128.Idx → EReal)
    (h4 : ∀ (b : Fin 4) (s : Fin 4096) (d : Fin 128), (V c main_v4 : S4x4096x128.Idx → EReal) (ix3 b s d) = x (ix3 b s d))
    (h2 : ∀ (b : Fin 4) (s : Fin 4096), (V c main_v2 : S4x4096x1.Idx → EReal) (ix3 b s (0 : Fin 1)) = Cert.Spec.sqn (Cert.Spec.xrow x b s))
    (h3 : ∀ (b : Fin 4) (t : Fin 4096), (V c main_v3 : S4x1x4096.Idx → EReal) (ix3 b (0 : Fin 1) t) = Cert.Spec.sqn (Cert.Spec.xrow x b t)),
    ((Cert.KernelIdeal.Hand.dat0 (F := Ideal) V c).arrAt 4 cfg0.N : S4x4096x4096.Idx → EReal) = fun i => Cert.Spec.Gat x (i 0) (i 1) (i 2)

/-- From the region's value to the program's result: the host operations on both sides of the region read at an index. -/
theorem kernel_result_of (hregion : RegionValue) (m : (ℓ : Loc nD τ sig) → Buf (Elt Ideal) ℓ) (ρ : Dev nD → PrngReg) (c : Dev nD) :
    (W3 (F := Ideal) m ρ c (Proc.devRef .tc main_v6) : S4x4096x4096x1.Idx → EReal)
      = Cert.Spec.G (W0 (F := Ideal) m ρ c (Proc.devRef .tc main_arg0)) := by
  funext i
  obtain ⟨b, s, t, z, rfl⟩ : ∃ (b : Fin 4) (s t : Fin 4096) (z : Fin 1), i = ix4 b s t z := ⟨i 0, i 1, i 2, i 3, eq_ix4 i⟩
  rw [Cert.Spec.G_ix4]
  refine (Cert.KernelHost.v6_at (W2 (F := Ideal) m ρ c) b s t z).trans ?_
  rw [W2_v5]
  exact congrFun (hregion (V1 (F := Ideal) m ρ) c (W0 (F := Ideal) m ρ c (Proc.devRef .tc main_arg0))
    (fun b s d => Cert.KernelHost.v4_at (W0 (F := Ideal) m ρ c) b s d)
    (fun b s => Cert.KernelHost.v2_at (W0 (F := Ideal) m ρ c) b s)
    (fun b t => Cert.KernelHost.v3_at (W0 (F := Ideal) m ρ c) b t)) (ix3 b s t)

/-- The same with the argument read off the launch memory directly. -/
theorem kernel_result_of_mem (hregion : RegionValue) (m : (ℓ : Loc nD τ sig) → Buf (Elt Ideal) ℓ) (ρ : Dev nD → PrngReg) (c : Dev nD) :
    (W3 (F := Ideal) m ρ c (Proc.devRef .tc main_v6) : S4x4096x4096x1.Idx → EReal)
      = Cert.Spec.G (m ((c : Thread nD τ).loc main_arg0)) :=
  kernel_result_of hregion m ρ c

/-- The program's result buffer is the specification's function of the argument. -/
theorem kernel_result (m : (ℓ : Loc nD τ sig) → Buf (Elt Ideal) ℓ) (ρ : Dev nD → PrngReg) (c : Dev nD) :
    (W3 (F := Ideal) m ρ c (Proc.devRef .tc main_v6) : S4x4096x4096x1.Idx → EReal)
      = Cert.Spec.G (m ((c : Thread nD τ).loc main_arg0)) :=
  kernel_result_of_mem (fun V c x h4 h2 h3 => final4 V c x h4 h2 h3) m ρ c

/-- The same with the argument written as the launch contents of the input's buffer. -/
theorem kernel_result_W0 (m : (ℓ : Loc nD τ sig) → Buf (Elt Ideal) ℓ) (ρ : Dev nD → PrngReg) (c : Dev nD) :
    (W3 (F := Ideal) m ρ c (Proc.devRef .tc main_v6) : S4x4096x4096x1.Idx → EReal)
      = Cert.Spec.G (W0 (F := Ideal) m ρ c (Proc.devRef .tc main_arg0)) :=
  kernel_result_of (fun V c x h4 h2 h3 => final4 V c x h4 h2 h3) m ρ c

end Cert.KernelValue

end
-- ==== Proof.RefIsG.lean ====
/-
  The reference program computes the specification `G`.

  The reference is read one operation at a time at an index: the squared norm of a row is the sum of the squares of
  its entries (the sum starts from zero); the batched contraction at `(b, s, t)` is the inner product of rows `s` and
  `t` of batch `b`; the two broadcasts of the squared norms, the scaled inner product, the clamp at zero, the negation
  and the division by the temperature give the logit. The maximum-reduce over the last axis from minus infinity is the
  fold of `max` from the bottom element over the key rows, which is `Finset.sup`; the further maximum with minus
  infinity changes nothing. The exponentials of the shifted logits, their sum from zero and the quotient are then the
  softmax row of the specification, and the trailing unit axis carries no information.
-/
import proofs.«109996_j25864293057205_1_alg».proof.Proof.Gen.ReferenceIdeal.Read
import proofs.«109996_j25864293057205_1_alg».proof.Proof.Spec

noncomputable section

open scoped BigOperators

namespace Cert.RefValue

open Cert.ReferenceIdeal Cert.ReferenceIdeal.Gen Cert.ReferenceIdeal.Read Idealize.ShloMosaic Idealize.ShloMosaic.TcCoe
  Idealize.SL.Sem Idealize.ShloMosaic.StableHlo Idealize.ShloMosaic.ValueIdx

/-- The squared norm of row `s` of batch `b`. -/
theorem sq_at (x0 : (⟨S4x4096x128, .f32⟩ : BufTy).Contents (Elt Ideal)) (b : Fin 4) (s : Fin 4096) :
    val_main_v1 (F := Ideal) x0 (ix2 b s) = Cert.Spec.sqn (Cert.Spec.xrow x0 b s) := by
  rw [val_main_v1_apply, val_main_cst_apply, Ideal.ofBits_def, Ideal.ofBits_zero_f32, zero_add]
  unfold Cert.Spec.sqn Cert.Spec.xrow
  refine Finset.sum_congr rfl fun k _ => ?_
  have e : idx_main_v1 (ix2 b s) k = ix3 b s k :=
    funext fun a => Fin.ext (by match a with | ⟨0, _⟩ => rfl | ⟨1, _⟩ => rfl | ⟨2, _⟩ => rfl)
  rw [val_main_v0_apply, e, Ideal.mulf_def]

/-- The inner product of rows `s` and `t` of batch `b`. -/
theorem dots_at (x0 : (⟨S4x4096x128, .f32⟩ : BufTy).Contents (Elt Ideal)) (b : Fin 4) (s t : Fin 4096) :
    val_main_v2 (F := Ideal) x0 (ix3 b s t) = ∑ d : Fin 128, x0 (ix3 b s d) * x0 (ix3 b t d) := by
  rw [val_main_v2_apply]
  refine Finset.sum_congr rfl fun k _ => ?_
  have el : lidx_main_v2 (ix3 b s t) k = ix3 b s k :=
    funext fun a => Fin.ext (by match a with | ⟨0, _⟩ => rfl | ⟨1, _⟩ => rfl | ⟨2, _⟩ => rfl)
  have er : ridx_main_v2 (ix3 b s t) k = ix3 b t k :=
    funext fun a => Fin.ext (by match a with | ⟨0, _⟩ => rfl | ⟨1, _⟩ => rfl | ⟨2, _⟩ => rfl)
  rw [el, er]

/-- The logit of query row `s` against key row `t` of batch `b`. -/
theorem logit_at (x0 : (⟨S4x4096x128, .f32⟩ : BufTy).Contents (Elt Ideal)) (b : Fin 4) (s t : Fin 4096) :
    val_main_v15 (F := Ideal) x0 (ix3 b s t)
      = Cert.Spec.logit (Cert.Spec.xrow x0 b s) (Cert.Spec.sqn (Cert.Spec.xrow x0 b s)) (fun t' => Cert.Spec.xrow x0 b t')
          (fun t' => Cert.Spec.sqn (Cert.Spec.xrow x0 b t')) t := by
  have e5 : idx_main_v3 (idx_main_v5 (ix3 b s t)) = ix2 b s :=
    funext fun a => Fin.ext (by match a with | ⟨0, _⟩ => rfl | ⟨1, _⟩ => rfl)
  have e6 : idx_main_v4 (idx_main_v6 (ix3 b s t)) = ix2 b t :=
    funext fun a => Fin.ext (by match a with | ⟨0, _⟩ => rfl | ⟨1, _⟩ => rfl)
  rw [val_main_v15_apply, val_main_v13_apply, val_main_v12_apply, val_main_v10_apply, val_main_v7_apply,
    val_main_v5_apply, val_main_v3_apply, e5, sq_at, val_main_v6_apply, val_main_v4_apply, e6, sq_at,
    val_main_v9_apply, val_main_v8_apply, val_main_cst_0_apply, dots_at, val_main_v11_apply, val_main_cst_1_apply,
    val_main_v14_apply, val_main_cst_2_apply]
  simp only [Ideal.hostDivf_def, Ideal.hostNegf_def, Ideal.negf_def, Ideal.maximumf_def, Ideal.subf_def, Ideal.addf_def,
    Ideal.mulf_def, Ideal.ofBits_def, Ideal.ofBits_zero_f32]
  rfl

/-- The word of minus infinity is the bottom element. -/
theorem ofBits_neg_inf : Ideal.ofBits .f32 0xFF800000#32 = (⊥ : EReal) := by simp [Ideal.ofBits, Ideal.ieee]

theorem reduces_d2 : S4x4096x4096.Reduces [2] S4x4096 := by decide

/-- The reduced index `(b, s)` with key row `k` put back on the last axis is `(b, s, k)`. -/
theorem lift_d2 (b : Fin 4) (s : Fin 4096) (k : Fin (S4x4096x4096.size 2)) :
    reduces_d2.lift (ix2 b s) k = ix3 b s (⟨k.val, k.isLt⟩ : Fin 4096) := by
  funext c; apply Fin.ext
  fin_cases c <;> rfl

/-- The row maximum of the logits: the maximum-reduce from minus infinity, then the maximum with minus infinity. -/
theorem max_at (x0 : (⟨S4x4096x128, .f32⟩ : BufTy).Contents (Elt Ideal)) (b : Fin 4) (s : Fin 4096) :
    val_main_v18 (F := Ideal) x0 (ix2 b s)
      = Finset.univ.sup fun t : Fin 4096 => val_main_v15 (F := Ideal) x0 (ix3 b s t) := by
  rw [val_main_v18_apply, val_main_v17_apply, val_main_cst_4_apply]
  unfold val_main_v16
  rw [Host.reduce_eq_fold_single FloatOps.maximumf _ _ reducesTo_S4x4096x4096_S4x4096_d2 reduces_d2 h_S_]
  rw [val_main_cst_3_apply, Ideal.ofBits_def, ofBits_neg_inf, Ideal.maximumf_def, bot_sup_eq]
  have hf : (val_main_v15 (F := Ideal) x0 ∘ reduces_d2.lift (ix2 b s))
      = fun k : Fin 4096 => val_main_v15 (F := Ideal) x0 (ix3 b s k) :=
    funext fun k => congrArg (val_main_v15 (F := Ideal) x0) (lift_d2 b s k)
  exact congrArg (fun f => Finset.fold max (⊥ : EReal) f (Finset.univ : Finset (Fin 4096))) hf

/-- The row maximum, over the logits of the specification. -/
theorem max_logit_at (x0 : (⟨S4x4096x128, .f32⟩ : BufTy).Contents (Elt Ideal)) (b : Fin 4) (s : Fin 4096) :
    val_main_v18 (F := Ideal) x0 (ix2 b s)
      = Finset.univ.sup (Cert.Spec.logit (Cert.Spec.xrow x0 b s) (Cert.Spec.sqn (Cert.Spec.xrow x0 b s))
          (fun t' => Cert.Spec.xrow x0 b t') (fun t' => Cert.Spec.sqn (Cert.Spec.xrow x0 b t'))) := by
  rw [max_at]
  exact congrArg (Finset.sup Finset.univ) (funext fun t => logit_at x0 b s t)

/-- The exponential of a logit minus its row's maximum. -/
theorem exp_at (x0 : (⟨S4x4096x128, .f32⟩ : BufTy).Contents (Elt Ideal)) (b : Fin 4) (s t : Fin 4096) :
    val_main_v22 (F := Ideal) x0 (ix3 b s t)
      = Ideal.exp (Cert.Spec.logit (Cert.Spec.xrow x0 b s) (Cert.Spec.sqn (Cert.Spec.xrow x0 b s))
            (fun t' => Cert.Spec.xrow x0 b t') (fun t' => Cert.Spec.sqn (Cert.Spec.xrow x0 b t')) t
          - Finset.univ.sup (Cert.Spec.logit (Cert.Spec.xrow x0 b s) (Cert.Spec.sqn (Cert.Spec.xrow x0 b s))
            (fun t' => Cert.Spec.xrow x0 b t') (fun t' => Cert.Spec.sqn (Cert.Spec.xrow x0 b t')))) := by
  have e20 : idx_main_v19 (idx_main_v20 (ix3 b s t)) = ix2 b s :=
    funext fun a => Fin.ext (by match a with | ⟨0, _⟩ => rfl | ⟨1, _⟩ => rfl)
  rw [val_main_v22_apply, val_main_v21_apply, val_main_v20_apply, val_main_v19_apply, e20, max_logit_at, logit_at,
    Ideal.hostUnary_exp_def, Ideal.subf_def]

/-- The row's sum of exponentials. -/
theorem sum_at (x0 : (⟨S4x4096x128, .f32⟩ : BufTy).Contents (Elt Ideal)) (b : Fin 4) (s : Fin 4096) :
    val_main_v23 (F := Ideal) x0 (ix2 b s)
      = ∑ c' : Fin 4096, Ideal.exp (Cert.Spec.logit (Cert.Spec.xrow x0 b s) (Cert.Spec.sqn (Cert.Spec.xrow x0 b s))
            (fun t' => Cert.Spec.xrow x0 b t') (fun t' => Cert.Spec.sqn (Cert.Spec.xrow x0 b t')) c'
          - Finset.univ.sup (Cert.Spec.logit (Cert.Spec.xrow x0 b s) (Cert.Spec.sqn (Cert.Spec.xrow x0 b s))
            (fun t' => Cert.Spec.xrow x0 b t') (fun t' => Cert.Spec.sqn (Cert.Spec.xrow x0 b t')))) := by
  rw [val_main_v23_apply, val_main_cst_5_apply, Ideal.ofBits_def, Ideal.ofBits_zero_f32, zero_add]
  refine Finset.sum_congr rfl fun k _ => ?_
  have e : idx_main_v23 (ix2 b s) k = ix3 b s k :=
    funext fun a => Fin.ext (by match a with | ⟨0, _⟩ => rfl | ⟨1, _⟩ => rfl | ⟨2, _⟩ => rfl)
  rw [e, exp_at]

/-- The reference program computes the specification. -/
theorem ref_is_G (x0 : (⟨Cert.ReferenceIdeal.S4x4096x128, .f32⟩ : BufTy).Contents (Elt Ideal)) :
    Cert.ReferenceIdeal.Read.val_main_v27 (F := Ideal) x0 = Cert.Spec.G x0 := by
  funext i
  obtain ⟨b, s, t, z, rfl⟩ : ∃ (b : Fin 4) (s t : Fin 4096) (z : Fin 1), i = ix4 b s t z := ⟨_, _, _, _, eq_ix4 i⟩
  have e27 : idx_main_v27 (ix4 b s t z) = ix3 b s t :=
    funext fun a => Fin.ext (by match a with | ⟨0, _⟩ => rfl | ⟨1, _⟩ => rfl | ⟨2, _⟩ => rfl)
  have e25 : idx_main_v24 (idx_main_v25 (ix3 b s t)) = ix2 b s :=
    funext fun a => Fin.ext (by match a with | ⟨0, _⟩ => rfl | ⟨1, _⟩ => rfl)
  rw [Cert.Spec.G_ix4, val_main_v27_apply, e27, val_main_v26_apply, exp_at, val_main_v25_apply, val_main_v24_apply, e25,
    sum_at, Ideal.hostDivf_def]
  rfl

end Cert.RefValue

end
-- ==== Proof.lean ====
/-
  The certificate of the pairwise-distance softmax kernel against its reference.

  Both programs take x : [4, 4096, 128] and return, for every batch b and rows s, t of x[b], the softmax over t of
  −max(‖x_s‖² + ‖x_t‖² − 2⟨x_s, x_t⟩, 0) / T, with a trailing axis of size one. The kernel computes the squared norms and a
  rounded copy of x on the host, then a grid of 4 × 16 points each of which takes 256 query rows, all 4096 key rows of
  its batch and the two norm vectors, forms the 256 × 4096 block of logits with one matrix product, and normalises each of
  its rows; a last host operation adds the trailing axis. The reference does the same with whole-array operations.

  Over the extended reals rounding is the identity and a matrix product, a lane sum and a lane maximum are the plain
  sum and supremum, so the two programs compute ONE function of x (`Cert.Spec.G`), term by term: no law is needed beyond
  commutativity of the sums and 0 − y = −y, and so no finiteness of the input either.
  * the kernel's frame, at both float instances: the run of the program through its host operations and its region; two
    of the region's windows read one array, each holding half of it (`Cert.Kernel.Hand.frame`, `Cert.KernelIdeal.Hand.frame`);
  * the reference's frame: its run with the result dropped;
  * the idealized kernel is the kernel's own text read over the extended reals: nothing to preserve;
  * the two results are equal: the kernel's result buffer after the run is `G` of the argument
    (`Cert.KernelValue.kernel_result`: the host values, each block the payload of the input blocks, the blocks tiling the
    array), and so is the reference's (`Cert.RefValue.ref_is_G`).
-/
import proofs.«109996_j25864293057205_1_alg».proof.Defs
import proofs.«109996_j25864293057205_1_alg».proof.Proof.Gen.Kernel
import proofs.«109996_j25864293057205_1_alg».proof.Proof.Gen.KernelIdeal
import proofs.«109996_j25864293057205_1_alg».proof.Proof.Gen.ReferenceIdeal
import proofs.«109996_j25864293057205_1_alg».proof.Proof.Gen.Pre_finite_inputs
import proofs.«109996_j25864293057205_1_alg».proof.Proof.Gen.ReferenceIdeal.Run
import proofs.«109996_j25864293057205_1_alg».proof.Proof.Gen.ReferenceIdeal.Read
import proofs.«109996_j25864293057205_1_alg».proof.Proof.KRun
import proofs.«109996_j25864293057205_1_alg».proof.Proof.KiRun
import proofs.«109996_j25864293057205_1_alg».proof.Proof.KiValue
import proofs.«109996_j25864293057205_1_alg».proof.Proof.RefIsG
import Idealize.ShloMosaic.Adequacy
import Idealize.ShloMosaic.Init

noncomputable section

namespace Cert.Proof

open Idealize.ShloMosaic Idealize.ShloMosaic.TcCoe Idealize.SL.Sem

/-- The kernel program runs to the end and leaves its argument as launched, on machine words. -/
theorem frame_k : Cert.frame_Kernel := fun m ρ _ => Cert.Kernel.Hand.frame (F := Bits) m ρ

/-- The same program read over the extended reals. -/
theorem frame_ki : Cert.frame_KernelIdeal := fun m ρ _ => Cert.KernelIdeal.Hand.frame (F := Ideal) m ρ

/-- The reference is host operations only: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- No operation of the kernel was rewritten for the reading over the extended reals. -/
theorem preserves : Cert.preserves_Kernel_KernelIdeal := trivial

/-- From memories that agree on the argument both programs run to the end, the argument unchanged, and the result
    buffers hold one function of the argument. -/
theorem algebraic : Cert.algebraic_KernelIdeal_ReferenceIdeal := by
  intro m ρ m' ρ' _ hagree
  refine ⟨fun c => Cert.KernelIdeal.Hand.W3 (F := Ideal) m ρ c (Proc.devRef .tc Cert.KernelIdeal.main_v6), ?_, ?_⟩
  · exact (θ_run Cert.KernelIdeal.defs _ _).mono (fun r h c =>
      ⟨h c _ (Cert.KernelIdeal.Hand.mem_uc Cert.KernelIdeal.main_v6 (by decide)),
        (h c _ (Cert.KernelIdeal.Hand.mem_uc Cert.KernelIdeal.main_arg0 (by decide))).trans (Cert.KernelIdeal.Hand.W3_main_arg0 m ρ c)⟩)
      (Cert.KernelIdeal.Hand.run_all (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v27_eq, Cert.RefValue.ref_is_G, hagree c]
    exact (Cert.KernelValue.kernel_result m ρ c).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
